-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x2 .f32) (main_arg12 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x2 : Shape := ⟨2, ![1, 2]⟩
abbrev S4000x128 : Shape := ⟨2, ![4000, 128]⟩
abbrev S1700000x128 : Shape := ⟨2, ![1700000, 128]⟩
abbrev S1024 : Shape := ⟨1, ![1024]⟩
abbrev S100000x1 : Shape := ⟨2, ![100000, 1]⟩
abbrev S1024x128 : Shape := ⟨2, ![1024, 128]⟩
abbrev S1024x1 : Shape := ⟨2, ![1024, 1]⟩
abbrev S1024x2 : Shape := ⟨2, ![1024, 2]⟩

abbrev nBuf : Space → Nat
  | .hbm => 138
  | .vmem => 33
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .bf16⟩
  | 47 => ⟨S128x128, .bf16⟩
  | 48 => ⟨S128x128, .bf16⟩
  | 49 => ⟨S128x128, .bf16⟩
  | 50 => ⟨S128x128, .bf16⟩
  | 51 => ⟨S128x2, .bf16⟩
  | 52 => ⟨S1x128, .f32⟩
  | 53 => ⟨S1x128, .f32⟩
  | 54 => ⟨S1x128, .f32⟩
  | 55 => ⟨S1x128, .f32⟩
  | 56 => ⟨S1x2, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S100000x128, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x1, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S100000x128, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S100000x128, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S1024, .f32⟩
  | 2 => ⟨S100000x1, .i32⟩
  | 3 => ⟨S1024, .f32⟩
  | 4 => ⟨S_, .f32⟩
  | 5 => ⟨S1024x128, .f32⟩
  | 6 => ⟨S100000x1, .i32⟩
  | 7 => ⟨S1024x128, .f32⟩
  | 8 => ⟨S1024x1, .f32⟩
  | 9 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S1x128, .f32⟩
  | .local _ .vmem, ⟨14, _⟩ => ⟨S128x128, .bf16⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S1x128, .f32⟩
  | .local _ .vmem, ⟨20, _⟩ => ⟨S128x128, .bf16⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S1024x128, .f32⟩
  | .local _ .vmem, ⟨29, _⟩ => ⟨S1024x1, .f32⟩
  | .local _ .vmem, ⟨30, _⟩ => ⟨S128x2, .bf16⟩
  | .local _ .vmem, ⟨31, _⟩ => ⟨S1x2, .f32⟩
  | .local _ .vmem, ⟨32, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_7 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_10 : Ref sig .tc := ⟨.hbm, 92, rfl⟩
abbrev main_v67 : Ref sig .tc := ⟨.hbm, 93, rfl⟩
abbrev main_v68 : Ref sig .tc := ⟨.hbm, 94, rfl⟩
abbrev main_c_11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_13 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_16 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1024x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1024x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x2 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1024x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S128_S1x128 : S128.ShapeCasts S1x128
  shapeCasts_S2_S1x2 : S2.ShapeCasts S1x2
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S1024 : S_.BroadcastsInDim S1024 (![] : Fin 0 → Fin S1024.rank)
  bcast_S100000_S100000x1_0 : S100000.BroadcastsInDim S100000x1 (![0] : Fin 1 → Fin S100000x1.rank)
  bcast_S_S1024x128 : S_.BroadcastsInDim S1024x128 (![] : Fin 0 → Fin S1024x128.rank)
  shapeCasts_S1024_S1024x1 : S1024.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S1024x128.size a
  hwx5_0 : ∀ i : grid5.Coords, EltTy.bits .f32 = 32 ∨ (Rect.block (s := S1024x128) S1024x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1.size a ≤ S1024x1.size a
  hwx5_1 : ∀ i : grid5.Coords, EltTy.bits .f32 = 32 ∨ (Rect.block (s := S1024x1) S1024x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x2.size a ≤ S128x2.size a
  hwx5_2 : ∀ i : grid5.Coords, EltTy.bits .bf16 = 32 ∨ (Rect.block (s := S128x2) S128x2.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1024x2.size a ≤ S1024x2.size a
  hwx5_4 : ∀ i : grid5.Coords, EltTy.bits .f32 = 32 ∨ (Rect.block (s := S1024x2) S1024x2.size (cc5_transform_4 i) (hinb5_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v93) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S1024x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1024x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S128x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1024x2.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1024 : Shape := ⟨1, ![1024]⟩
abbrev S100000x1 : Shape := ⟨2, ![100000, 1]⟩
abbrev S1024x128 : Shape := ⟨2, ![1024, 128]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x128, .f32⟩
  | 79 => ⟨S1700000x1, .f32⟩
  | 80 => ⟨S1700000x128, .f32⟩
  | 81 => ⟨S1700000x128, .f32⟩
  | 82 => ⟨S_, .f32⟩
  | 83 => ⟨S100000x128, .f32⟩
  | 84 => ⟨S1700000x1, .i32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x1, .f32⟩
  | 103 => ⟨S1700000x128, .f32⟩
  | 104 => ⟨S1700000x128, .f32⟩
  | 105 => ⟨S_, .f32⟩
  | 106 => ⟨S100000x128, .f32⟩
  | 107 => ⟨S1700000x1, .i32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x1, .f32⟩
  | 126 => ⟨S1700000x128, .f32⟩
  | 127 => ⟨S1700000x128, .f32⟩
  | _ => ⟨S100000x128, .f32⟩

abbrev hbmTy0_1 (i : Nat) : BufTy := match i % 128 with
  | 0 => ⟨S_, .f32⟩
  | 1 => ⟨S100000x128, .f32⟩
  | 2 => ⟨S1700000x1, .i32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .f32⟩
  | 11 => ⟨S100000, .f32⟩
  | 12 => ⟨S_, .f32⟩
  | 13 => ⟨S1024, .f32⟩
  | 14 => ⟨S100000x1, .i32⟩
  | 15 => ⟨S1024, .f32⟩
  | 16 => ⟨S_, .f32⟩
  | 17 => ⟨S1024x128, .f32⟩
  | 18 => ⟨S100000x1, .i32⟩
  | 19 => ⟨S1024x128, .f32⟩
  | 20 => ⟨S_, .f32⟩
  | 21 => ⟨S1024, .f32⟩
  | 22 => ⟨S1024, .f32⟩
  | 23 => ⟨S1024x1, .f32⟩
  | 24 => ⟨S1024x128, .f32⟩
  | 25 => ⟨S1024x128, .f32⟩
  | 26 => ⟨S1024x2, .f32⟩
  | 27 => ⟨S1x2, .f32⟩
  | 28 => ⟨S1024x2, .f32⟩
  | 29 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_v81 : Ref sig .tc := ⟨.hbm, 115, rfl⟩
abbrev main_c_13 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call3_cst : Ref sig .tc := ⟨.hbm, 135, rfl⟩
abbrev main_call3_v0 : Ref sig .tc := ⟨.hbm, 136, rfl⟩
abbrev main_v98 : Ref sig .tc := ⟨.hbm, 137, rfl⟩
abbrev main_cst_16 : Ref sig .tc := ⟨.hbm, 138, rfl⟩
abbrev main_v99 : Ref sig .tc := ⟨.hbm, 139, rfl⟩
abbrev main_cst_17 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_18 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_19 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024 : S_.BroadcastsInDim S1024 (![] : Fin 0 → Fin S1024.rank)
  bcast_S100000_S100000x1_0 : S100000.BroadcastsInDim S100000x1 (![0] : Fin 1 → Fin S100000x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x2_S1024x2_1_0_0_1_n_n_wf : DotDims.WF S1024x128 S128x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.RefEntries.lean ====
/-
  The reference network, one layer at a time, read at an entry.

  Each graph-convolution layer of the reference multiplies the previous activation by a weight matrix,
  aggregates over the edges, adds a bias and applies relu. Read at row `r` and column `q`, the product
  that opens layer `l + 1` is the sum over `k` of relu(aggregate of layer `l` at `(r, k)` plus the bias
  at `k`) times the weight at `(k, q)`; the last activation is relu(aggregate + bias); and the output is,
  for graph `g` and class `o`, the sum over `k` of (pooled sum at `(g, k)` divided by max(count of `g`, 1))
  times the weight at `(k, o)`, plus the bias at `o`. These are the stages of the reference read through
  their two broadcasts of the bias and the zero (or one) word, nothing more.
-/
import proofs.«156880_j83597243449354_1_alg».proof.Proof.Gen.ReferenceIdeal.Read

set_option maxRecDepth 16384

noncomputable section

namespace Cert.ReferenceIdeal.Entries

open Cert.ReferenceIdeal Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S100000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x2, .f32⟩ : BufTy).Contents (Elt Ideal)) (x12 : (⟨S2, .f32⟩ : BufTy).Contents (Elt Ideal))

/-! ## Where a product's entry reads its operands, and where a broadcast bias reads its vector -/

theorem l27 (r : Fin 100000) (q k : Fin 128) : lidx_main_v27 (ix2 r q) k = ix2 r k :=
  funext fun a => Fin.ext (by match a with | ⟨0, _⟩ => rfl | ⟨1, _⟩ => rfl)
theorem r27 (r : Fin 100000) (q k : Fin 128) : ridx_main_v27 (ix2 r q) k = ix2 k q :=
  funext fun a => Fin.ext (by match a with | ⟨0, _⟩ => rfl | ⟨1, _⟩ => rfl)
theorem l45 (r : Fin 100000) (q k : Fin 128) : lidx_main_v45 (ix2 r q) k = ix2 r k :=
  funext fun a => Fin.ext (by match a with | ⟨0, _⟩ => rfl | ⟨1, _⟩ => rfl)
theorem r45 (r : Fin 100000) (q k : Fin 128) : ridx_main_v45 (ix2 r q) k = ix2 k q :=
  funext fun a => Fin.ext (by match a with | ⟨0, _⟩ => rfl | ⟨1, _⟩ => rfl)
theorem l63 (r : Fin 100000) (q k : Fin 128) : lidx_main_v63 (ix2 r q) k = ix2 r k :=
  funext fun a => Fin.ext (by match a with | ⟨0, _⟩ => rfl | ⟨1, _⟩ => rfl)
theorem r63 (r : Fin 100000) (q k : Fin 128) : ridx_main_v63 (ix2 r q) k = ix2 k q :=
  funext fun a => Fin.ext (by match a with | ⟨0, _⟩ => rfl | ⟨1, _⟩ => rfl)
theorem l81 (r : Fin 100000) (q k : Fin 128) : lidx_main_v81 (ix2 r q) k = ix2 r k :=
  funext fun a => Fin.ext (by match a with | ⟨0, _⟩ => rfl | ⟨1, _⟩ => rfl)
theorem r81 (r : Fin 100000) (q k : Fin 128) : ridx_main_v81 (ix2 r q) k = ix2 k q :=
  funext fun a => Fin.ext (by match a with | ⟨0, _⟩ => rfl | ⟨1, _⟩ => rfl)
theorem l111 (g : Fin 1024) (o : Fin 2) (k : Fin 128) : lidx_main_v111 (ix2 g o) k = ix2 g k :=
  funext fun a => Fin.ext (by match a with | ⟨0, _⟩ => rfl | ⟨1, _⟩ => rfl)
theorem r111 (g : Fin 1024) (o : Fin 2) (k : Fin 128) : ridx_main_v111 (ix2 g o) k = ix2 k o :=
  funext fun a => Fin.ext (by match a with | ⟨0, _⟩ => rfl | ⟨1, _⟩ => rfl)

/-- The bias of a layer, broadcast to a row and then to every row, reads the vector at the column. -/
theorem b42 (r : Fin 100000) (k : Fin 128) : idx_main_v41 (idx_main_v42 (ix2 r k)) = ix1 k :=
  funext fun a => Fin.ext (by match a with | ⟨0, _⟩ => rfl)
theorem b60 (r : Fin 100000) (k : Fin 128) : idx_main_v59 (idx_main_v60 (ix2 r k)) = ix1 k :=
  funext fun a => Fin.ext (by match a with | ⟨0, _⟩ => rfl)
theorem b78 (r : Fin 100000) (k : Fin 128) : idx_main_v77 (idx_main_v78 (ix2 r k)) = ix1 k :=
  funext fun a => Fin.ext (by match a with | ⟨0, _⟩ => rfl)
theorem b96 (r : Fin 100000) (k : Fin 128) : idx_main_v95 (idx_main_v96 (ix2 r k)) = ix1 k :=
  funext fun a => Fin.ext (by match a with | ⟨0, _⟩ => rfl)
theorem b113 (g : Fin 1024) (o : Fin 2) : idx_main_v112 (idx_main_v113 (ix2 g o)) = ix1 o :=
  funext fun a => Fin.ext (by match a with | ⟨0, _⟩ => rfl)
/-- The count of a graph, clamped, broadcast to a column and then along the features, reads the graph's count. -/
theorem b109 (g : Fin 1024) (k : Fin 128) : idx_main_v108 (idx_main_v109 (ix2 g k)) = ix1 g :=
  funext fun a => Fin.ext (by match a with | ⟨0, _⟩ => rfl)

/-! ## The stages at an entry -/

/-- The first product: the row of the features against the column of the first weights. -/
theorem product1 (r : Fin 100000) (q : Fin 128) :
    val_main_v27 (F := Ideal) x0 x3 (ix2 r q) = ∑ k : Fin 128, x0 (ix2 r k) * x3 (ix2 k q) := by
  rw [val_main_v27_apply]
  refine Finset.sum_congr rfl fun k _ => ?_
  rw [l27, r27]

/-- The second product: relu(first aggregate + first bias) against the second weights. -/
theorem product2 (r : Fin 100000) (q : Fin 128) :
    val_main_v45 (F := Ideal) x0 x1 x3 x4 x5 (ix2 r q)
      = ∑ k : Fin 128, max (val_main_v40 (F := Ideal) x0 x1 x3 (ix2 r k) + x4 (ix1 k)) (Ideal.ofBits .f32 0x00000000#32) * x5 (ix2 k q) := by
  rw [val_main_v45_apply]
  refine Finset.sum_congr rfl fun k _ => ?_
  rw [l45, r45, val_main_v44_apply, val_main_v43_apply, val_main_v42_apply, val_main_v41_apply, b42,
    val_main_call0_v0_apply, val_main_call0_cst_apply]
  rfl

/-- The third product: relu(second aggregate + second bias) against the third weights. -/
theorem product3 (r : Fin 100000) (q : Fin 128) :
    val_main_v63 (F := Ideal) x0 x1 x3 x4 x5 x6 x7 (ix2 r q)
      = ∑ k : Fin 128, max (val_main_v58 (F := Ideal) x0 x1 x3 x4 x5 (ix2 r k) + x6 (ix1 k)) (Ideal.ofBits .f32 0x00000000#32) * x7 (ix2 k q) := by
  rw [val_main_v63_apply]
  refine Finset.sum_congr rfl fun k _ => ?_
  rw [l63, r63, val_main_v62_apply, val_main_v61_apply, val_main_v60_apply, val_main_v59_apply, b60,
    val_main_call1_v0_apply, val_main_call1_cst_apply]
  rfl

/-- The fourth product: relu(third aggregate + third bias) against the fourth weights. -/
theorem product4 (r : Fin 100000) (q : Fin 128) :
    val_main_v81 (F := Ideal) x0 x1 x3 x4 x5 x6 x7 x8 x9 (ix2 r q)
      = ∑ k : Fin 128, max (val_main_v76 (F := Ideal) x0 x1 x3 x4 x5 x6 x7 (ix2 r k) + x8 (ix1 k)) (Ideal.ofBits .f32 0x00000000#32) * x9 (ix2 k q) := by
  rw [val_main_v81_apply]
  refine Finset.sum_congr rfl fun k _ => ?_
  rw [l81, r81, val_main_v80_apply, val_main_v79_apply, val_main_v78_apply, val_main_v77_apply, b78,
    val_main_call2_v0_apply, val_main_call2_cst_apply]
  rfl

/-- The last activation: relu(fourth aggregate + fourth bias). -/
theorem activation4 (r : Fin 100000) (q : Fin 128) :
    val_main_v98 (F := Ideal) x0 x1 x3 x4 x5 x6 x7 x8 x9 x10 (ix2 r q)
      = max (val_main_v94 (F := Ideal) x0 x1 x3 x4 x5 x6 x7 x8 x9 (ix2 r q) + x10 (ix1 q)) (Ideal.ofBits .f32 0x00000000#32) := by
  rw [val_main_v98_apply, val_main_v97_apply, val_main_v96_apply, val_main_v95_apply, b96,
    val_main_call3_v0_apply, val_main_call3_cst_apply]
  rfl

/-- The output: the row of means (pooled sum over the clamped count) against the last weights, plus the last bias. -/
theorem output (g : Fin 1024) (o : Fin 2) :
    val_main_v114 (F := Ideal) x0 x1 x2 x3 x4 x5 x6 x7 x8 x9 x10 x11 x12 (ix2 g o)
      = (∑ k : Fin 128, Ideal.div (val_main_v105 (F := Ideal) x0 x1 x2 x3 x4 x5 x6 x7 x8 x9 x10 (ix2 g k))
            (max (val_main_v102 (F := Ideal) x2 (ix1 g)) (Ideal.ofBits .f32 0x3F800000#32)) * x11 (ix2 k o))
        + x12 (ix1 o) := by
  rw [val_main_v114_apply, val_main_v111_apply, val_main_v113_apply, val_main_v112_apply, b113]
  refine congrArg (· + x12 (ix1 o)) (Finset.sum_congr rfl fun k _ => ?_)
  rw [l111, r111, val_main_v110_apply, val_main_v109_apply, val_main_v108_apply, b109, val_main_v107_apply,
    val_main_v106_apply, val_main_cst_19_apply]
  rfl

end Cert.ReferenceIdeal.Entries

end
-- ==== Proof.KernelKept.lean ====
/-
  What each segment of the kernel program leaves unchanged.

  A stretch of host operations changes only the buffers its operations write; a kernel region changes only
  the arrays of its windows. So a buffer that a stretch does not write holds after the stretch what it held
  before, and a buffer that is not one of a region's arrays holds at the region's exit what it held at its
  entry. The lists below name, per stretch, every buffer its operations write.
-/
import proofs.«156880_j83597243449354_1_alg».proof.Proof.Gen.KernelIdeal.Frame

set_option maxRecDepth 16384

noncomputable section

namespace Cert.KernelIdeal.Kept

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg)

/-- The buffers the operations of stretch 0 write. -/
abbrev written0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_v28, main_v29, main_v30, main_v31, main_v32, main_v33, main_v34, main_v35, main_v36, main_v37]
theorem written0_all : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 1 write. -/
abbrev written1 : List (Ref sig .tc) := [main_c_4, main_v39, main_v40, main_c_5, main_v41, main_v42, main_v43, main_v44, main_v45, main_v46, main_v47, main_v48, main_cst_6, main_v49, main_v50, main_v51]
theorem written1_all : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 2 write. -/
abbrev written2 : List (Ref sig .tc) := [main_c_7, main_v53, main_v54, main_c_8, main_v55, main_v56, main_v57, main_v58, main_v59, main_v60, main_v61, main_v62, main_cst_9, main_v63, main_v64, main_v65]
theorem written2_all : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 3 write. -/
abbrev written3 : List (Ref sig .tc) := [main_c_10, main_v67, main_v68, main_c_11, main_v69, main_v70, main_v71, main_v72, main_v73, main_v74, main_v75, main_v76, main_cst_12, main_v77, main_v78, main_v79]
theorem written3_all : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 4 write. -/
abbrev written4 : List (Ref sig .tc) := [main_c_13, main_v81, main_v82, main_c_14, main_v83, main_v84, main_v85, main_v86, main_v87, main_v88, main_v89, main_v90, main_cst_15, main_v91, main_v92, main_v93]
theorem written4_all : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 5 write. -/
abbrev written5 : List (Ref sig .tc) := [main_cst_16, main_v95, main_cst_17, main_v96, main_v97, main_v98, main_cst_18, main_v99, main_v100, main_v101, main_v102]
theorem written5_all : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## Across a stretch -/

theorem across_stretch0 (c : Dev nD) (r : Ref sig .tc) (h : r ∉ written0) :
    W1 m ρ c (Proc.devRef .tc r) = W0 m ρ c (Proc.devRef .tc r) :=
  StableHlo.after_of_writes_sub hostOps0 _ written0_all h
theorem across_stretch1 (c : Dev nD) (r : Ref sig .tc) (h : r ∉ written1) :
    W3 m ρ c (Proc.devRef .tc r) = W2 m ρ c (Proc.devRef .tc r) :=
  StableHlo.after_of_writes_sub hostOps1 _ written1_all h
theorem across_stretch2 (c : Dev nD) (r : Ref sig .tc) (h : r ∉ written2) :
    W5 m ρ c (Proc.devRef .tc r) = W4 m ρ c (Proc.devRef .tc r) :=
  StableHlo.after_of_writes_sub hostOps2 _ written2_all h
theorem across_stretch3 (c : Dev nD) (r : Ref sig .tc) (h : r ∉ written3) :
    W7 m ρ c (Proc.devRef .tc r) = W6 m ρ c (Proc.devRef .tc r) :=
  StableHlo.after_of_writes_sub hostOps3 _ written3_all h
theorem across_stretch4 (c : Dev nD) (r : Ref sig .tc) (h : r ∉ written4) :
    W9 m ρ c (Proc.devRef .tc r) = W8 m ρ c (Proc.devRef .tc r) :=
  StableHlo.after_of_writes_sub hostOps4 _ written4_all h
theorem across_stretch5 (c : Dev nD) (r : Ref sig .tc) (h : r ∉ written5) :
    W11 m ρ c (Proc.devRef .tc r) = W10 m ρ c (Proc.devRef .tc r) :=
  StableHlo.after_of_writes_sub hostOps5 _ written5_all h

/-! ## Across a region -/

theorem across_region0 (c : Dev nD) (r : Ref sig .tc) (h : ∀ w, Pipeline.arrRef spec0 w ≠ r) :
    W2 m ρ c (Proc.devRef .tc r) = W1 m ρ c (Proc.devRef .tc r) :=
  W2_of_ne m ρ c r h
theorem across_region1 (c : Dev nD) (r : Ref sig .tc) (h : ∀ w, Pipeline.arrRef spec1 w ≠ r) :
    W4 m ρ c (Proc.devRef .tc r) = W3 m ρ c (Proc.devRef .tc r) :=
  W4_of_ne m ρ c r h
theorem across_region2 (c : Dev nD) (r : Ref sig .tc) (h : ∀ w, Pipeline.arrRef spec2 w ≠ r) :
    W6 m ρ c (Proc.devRef .tc r) = W5 m ρ c (Proc.devRef .tc r) :=
  W6_of_ne m ρ c r h
theorem across_region3 (c : Dev nD) (r : Ref sig .tc) (h : ∀ w, Pipeline.arrRef spec3 w ≠ r) :
    W8 m ρ c (Proc.devRef .tc r) = W7 m ρ c (Proc.devRef .tc r) :=
  W8_of_ne m ρ c r h
theorem across_region4 (c : Dev nD) (r : Ref sig .tc) (h : ∀ w, Pipeline.arrRef spec4 w ≠ r) :
    W10 m ρ c (Proc.devRef .tc r) = W9 m ρ c (Proc.devRef .tc r) :=
  W10_of_ne m ρ c r h
theorem across_region5 (c : Dev nD) (r : Ref sig .tc) (h : ∀ w, Pipeline.arrRef spec5 w ≠ r) :
    W12 m ρ c (Proc.devRef .tc r) = W11 m ρ c (Proc.devRef .tc r) :=
  W12_of_ne m ρ c r h

end Cert.KernelIdeal.Kept

end
-- ==== Proof.KernelRun.lean ====
/-
  The run of the idealized kernel program, with its last boundary named.

  The program is twelve segments: six stretches of host operations, each followed by a pipelined kernel
  region. Every weakly fair execution from any launch memory terminates without a fault, and in the
  final state every unscoped buffer of a core holds the contents at the last segment boundary: the fold
  of the host stretches and of the regions' write-backs from the launch memory. Any property of the
  final memory that follows from that reading holds of every final state.
-/
import proofs.«156880_j83597243449354_1_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a state whose unscoped buffers hold the last
    boundary's contents; so it satisfies whatever those contents imply. -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

end Cert.KernelIdeal.LastBoundary

end
-- ==== Proof.DenseEntry.lean ====
import proofs.«156880_j83597243449354_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen Idealize.ShloMosaic Idealize.ShloMosaic.ValueIdx
open Idealize.ShloMosaic.TcCoe Idealize.SL.Sem

/-! # One entry of a dense layer's block

Every region of the network multiplies a block of 4000 rows of 128 features by a 128 × 128 weight matrix, into a zero
accumulator: entry (p, q) of the product is the sum over the shared axis k of the block's entry (p, k) times the
weights' entry (k, q). The first region multiplies the rows as they are; the three that follow first add a bias row to
every row and clamp the sum below at zero. The change of format between the clamp and the product is the identity on
extended reals. -/

/-- Every body loads and stores whole staging buffers: the offsets are zero on both axes. -/
theorem zero_offsets : (![0, 0] : Fin 2 → Nat) = fun _ => 0 := funext fun a => by fin_cases a <;> rfl

/-! ## The contraction's operand indices -/

/-- The left operand's row is the output's row. -/
theorem lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column is the shared axis. -/
theorem lhs_col (i : S4000x128.Idx) (κ : dot_S4000x128_S128x128_S4000x128_1_0_0_1_n_n.contr.Idx) :
    (dot_S4000x128_S128x128_S4000x128_1_0_0_1_n_n.lhsIdx i κ 1).val = (κ ⟨0, by decide⟩).val :=
  dot_S4000x128_S128x128_S4000x128_1_0_0_1_n_n.lhsIdx_val_of_single rfl i κ

/-- The right operand's row is the shared axis. -/
theorem rhs_row (i : S4000x128.Idx) (κ : dot_S4000x128_S128x128_S4000x128_1_0_0_1_n_n.contr.Idx) :
    (dot_S4000x128_S128x128_S4000x128_1_0_0_1_n_n.rhsIdx i κ 0).val = (κ ⟨0, by decide⟩).val :=
  dot_S4000x128_S128x128_S4000x128_1_0_0_1_n_n.rhsIdx_val_of_single rfl i κ

/-- The right operand's column is the output's column. -/
theorem rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-! ## The product into a zero accumulator -/

/-- Entry (p, q) of a block times a matrix, accumulated from zero: row p of the block against column q of the matrix,
    summed over the shared axis. -/
theorem matmul_zero_apply (a : FVec Ideal S4000x128 .bf16) (b : FVec Ideal S128x128 .bf16) (p : Fin 4000) (q : Fin 128) :
    matmul dot_S4000x128_S128x128_S4000x128_1_0_0_1_n_n none a b (constant S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two bodies at an entry of their block -/

/-- The first region's body: the block times the weights. -/
theorem k0_pay1_apply (x0 : FVec Ideal S4000x128 .bf16) (x1 : FVec Ideal S128x128 .bf16) (p : Fin 4000) (q : Fin 128) :
    k0_pay1 (F := Ideal) x0 x1 (ix2 p q) = ∑ k : Fin 128, x0 (ix2 p k) * x1 (ix2 k q) := by
  unfold k0_pay1
  simp only [shapeCast_self]
  exact matmul_zero_apply x0 x1 p q

/-- A hidden layer's body: each row plus the bias row, clamped below at zero, times the weights. -/
theorem k1_pay1_apply (x0 : FVec Ideal S4000x128 .f32) (x1 : FVec Ideal S1x128 .f32) (x2 : FVec Ideal S128x128 .bf16)
    (p : Fin 4000) (q : Fin 128) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  simp only [shapeCast_self]
  refine (matmul_zero_apply _ _ p q).trans ?_
  refine Finset.sum_congr rfl fun k _ => ?_
  show max (x0 (ix2 p k) + broadcastTo S4000x128 x1 broadcasts_S1x128_S4000x128 (ix2 p k)) (Ideal.ofBits .f32 0x00000000#32) * x2 (ix2 k q) = _
  rw [broadcastTo_1b_ab_apply]

/-- The second and third hidden layers' bodies are the first's, term for term. -/
theorem k2_pay1_eq (x0 : FVec Ideal S4000x128 .f32) (x1 : FVec Ideal S1x128 .f32) (x2 : FVec Ideal S128x128 .bf16) :
    k2_pay1 (F := Ideal) x0 x1 x2 = k1_pay1 (F := Ideal) x0 x1 x2 := rfl
theorem k3_pay1_eq (x0 : FVec Ideal S4000x128 .f32) (x1 : FVec Ideal S1x128 .f32) (x2 : FVec Ideal S128x128 .bf16) :
    k3_pay1 (F := Ideal) x0 x1 x2 = k1_pay1 (F := Ideal) x0 x1 x2 := rfl

/-! ## The whole arrays the regions leave, index by index -/

/-- Rows against columns: entry i = (r, q) is row r of `A` against column q of `W`. -/
def rowCol (A : S100000x128.Idx → EReal) (W : S128x128.Idx → EReal) : S100000x128.Idx → EReal :=
  fun i => ∑ k : Fin 128, A (ix2 ⟨(i 0).val, idx2_lt0 i⟩ k) * W (ix2 k ⟨(i 1).val, idx2_lt1 i⟩)

/-- A hidden layer: entry i = (r, q) is row r of `A` plus the bias row `B`, clamped below at zero, against column q of `W`. -/
def hidden (A : S100000x128.Idx → EReal) (B : S1x128.Idx → EReal) (W : S128x128.Idx → EReal) : S100000x128.Idx → EReal :=
  fun i => ∑ k : Fin 128, max (A (ix2 ⟨(i 0).val, idx2_lt0 i⟩ k) + B (ix2 (0 : Fin 1) k)) (Ideal.ofBits .f32 0x00000000#32)
    * W (ix2 k ⟨(i 1).val, idx2_lt1 i⟩)

theorem rowCol_ix2 (A : S100000x128.Idx → EReal) (W : S128x128.Idx → EReal) (r : Fin 100000) (q : Fin 128) :
    rowCol A W (ix2 r q) = ∑ k : Fin 128, A (ix2 r k) * W (ix2 k q) := rfl

theorem hidden_ix2 (A : S100000x128.Idx → EReal) (B : S1x128.Idx → EReal) (W : S128x128.Idx → EReal) (r : Fin 100000) (q : Fin 128) :
    hidden A B W (ix2 r q)
      = ∑ k : Fin 128, max (A (ix2 r k) + B (ix2 (0 : Fin 1) k)) (Ideal.ofBits .f32 0x00000000#32) * W (ix2 k q) := rfl

/-- Entry (p, q) of the first region's body is entry `i` of the whole product, once row p of the block is row `i 0` of
    the array and column q of the block of weights is column `i 1` of the weights. -/
theorem k0_pay1_entry (A : S100000x128.Idx → EReal) (W : S128x128.Idx → EReal)
    (x0 : FVec Ideal S4000x128 .bf16) (x1 : FVec Ideal S128x128 .bf16) (i : S100000x128.Idx) (p : Fin 4000) (q : Fin 128)
    (h0 : ∀ k : Fin 128, x0 (ix2 p k) = A (ix2 ⟨(i 0).val, idx2_lt0 i⟩ k))
    (h1 : ∀ k : Fin 128, x1 (ix2 k q) = W (ix2 k ⟨(i 1).val, idx2_lt1 i⟩)) :
    k0_pay1 (F := Ideal) x0 x1 (ix2 p q) = rowCol A W i :=
  (k0_pay1_apply x0 x1 p q).trans (Finset.sum_congr rfl fun k _ => by rw [h0 k, h1 k])

/-- The same for a hidden layer's body, the bias block being the bias row. -/
theorem k1_pay1_entry (A : S100000x128.Idx → EReal) (B : S1x128.Idx → EReal) (W : S128x128.Idx → EReal)
    (x0 : FVec Ideal S4000x128 .f32) (x1 : FVec Ideal S1x128 .f32) (x2 : FVec Ideal S128x128 .bf16)
    (i : S100000x128.Idx) (p : Fin 4000) (q : Fin 128)
    (h0 : ∀ k : Fin 128, x0 (ix2 p k) = A (ix2 ⟨(i 0).val, idx2_lt0 i⟩ k))
    (h1 : ∀ k : Fin 128, x1 (ix2 (0 : Fin 1) k) = B (ix2 (0 : Fin 1) k))
    (h2 : ∀ k : Fin 128, x2 (ix2 k q) = W (ix2 k ⟨(i 1).val, idx2_lt1 i⟩)) :
    k1_pay1 (F := Ideal) x0 x1 x2 (ix2 p q) = hidden A B W i :=
  (k1_pay1_apply x0 x1 x2 p q).trans (Finset.sum_congr rfl fun k _ => by rw [h0 k, h1 k, h2 k])

end Cert.KernelIdeal.DenseValue

end
-- ==== Proof.DenseRegion0.lean ====
import proofs.«156880_j83597243449354_1_alg».proof.Proof.Gen.KernelIdeal.Frame
import proofs.«156880_j83597243449354_1_alg».proof.Proof.DenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen Idealize.ShloMosaic Idealize.ShloMosaic.ValueIdx
open Idealize.ShloMosaic.TcCoe Idealize.SL.Sem
open Idealize.ShloMosaic.Pipeline (Dat)

/-! # The first region: the node features times the first weights

The grid has 25 points. Point `t` reads rows 4000·t … 4000·t + 3999 of the [100000,128] features, the whole
[128,128] weight matrix, and writes rows 4000·t … 4000·t + 3999 of the [100000,128] product. An entry (r, q) of the
product therefore depends on row r of the features and column q of the weights only, and the 25 blocks of rows tile
the array: the array the region leaves is the product, entry by entry. -/

variable (V : (c : Dev nD) → (b : Ref sig .tc) → Buf (Elt Ideal) ((c : Thread nD τ).loc b))

/-- The block indices over the 25 points: the features' and the product's blocks move together along the rows and
    never along the columns; the weights' block never moves; the product's row block at point `t` is block `t`. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product of the arrays the region finds. -/
theorem flushed0 (c : Dev nD) (t : Fin cfg0.N) :
    (dat0 (F := Ideal) V c).flushed 2 t
      = ((cfg0.win 2).blk t).view.read (Elt Ideal) (rowCol (V c main_v27) (V c main_v28)) := by
  show (cfg0.win 2).cut (grid0.coords t) ((dat0 (F := Ideal) V c).after 2 t) = _
  rw [after0_2]
  unfold out0_2
  rw [View.canon_unit_zero zero_offsets]
  simp only [View.ld_unit_zero (S := S4000x128) zero_offsets, View.ld_unit_zero (S := S128x128) zero_offsets]
  obtain ⟨e00, e01, e10, e11, e20, e21⟩ := blockIndex0 t
  funext j
  obtain ⟨p, q, rfl⟩ : ∃ (p : Fin 4000) (q : Fin 128), j = ix2 p q := ⟨j 0, j 1, eq_ix2 j⟩
  refine k0_pay1_entry (V c main_v27) (V c main_v28) (iblk0 V c 0 t) (iblk0 V c 1 t)
    (((cfg0.win 2).blk t).view.emb (ix2 p q)) p q (fun k => ?_) (fun k => ?_)
  · show V c main_v27 (((cfg0.win 0).blk t).view.emb (ix2 p k)) = V c main_v27 _
    refine congrArg (V c main_v27) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * k.val = k.val; omega
  · show V c main_v28 (((cfg0.win 1).blk t).view.emb (ix2 k q)) = V c main_v28 _
    refine congrArg (V c main_v28) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the product is in point `t`'s block iff each coordinate is in the block's range on its axis. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v38).slice (win0_2.rect t)).set ↔ _
  rw [View.set_slice_whole, Rect.mem_set_unit]
  exact Iff.rfl

/-- Row r lies in the block of point r / 4000: the 25 blocks tile the array. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 25 := N_0
  obtain ⟨t, ht⟩ : ∃ t : Fin cfg0.N, t.val = (i 0).val / 4000 := ⟨⟨(i 0).val / 4000, by omega⟩, rfl⟩
  obtain ⟨-, -, -, -, e20, e21⟩ := blockIndex0 t
  refine ⟨t, flush0_2 t, ?_⟩
  rw [mem_block0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- The array the region leaves is the whole product. -/
theorem final0 (c : Dev nD) :
    (dat0 (F := Ideal) V c).arrAt 2 cfg0.N = rowCol (V c main_v27) (V c main_v28) :=
  (dat0 (F := Ideal) V c).arrAt_eq_of_cover 2 (rowCol (V c main_v27) (V c main_v28)) (fun t _ => flushed0 V c t) cover0

/-- Region 0: each entry of the output array is the row of the first operand against the column of the second. -/
theorem matmul0 (c : Dev nD) (A : (⟨S100000x128, .bf16⟩ : BufTy).Contents (Elt Ideal)) (W : (⟨S128x128, .bf16⟩ : BufTy).Contents (Elt Ideal))
    (hA : V c main_v27 = A) (hW : V c main_v28 = W) (r : Fin 100000) (q : Fin 128) :
    (dat0 (F := Ideal) V c).arrAt 2 cfg0.N (ix2 r q) = ∑ k : Fin 128, A (ix2 r k) * W (ix2 k q) := by
  subst hA hW
  exact (congrFun (final0 V c) (ix2 r q)).trans (rowCol_ix2 _ _ r q)

end Cert.KernelIdeal.DenseValue

end
-- ==== Proof.DenseRegion1.lean ====
import proofs.«156880_j83597243449354_1_alg».proof.Proof.Gen.KernelIdeal.Frame
import proofs.«156880_j83597243449354_1_alg».proof.Proof.DenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen Idealize.ShloMosaic Idealize.ShloMosaic.ValueIdx
open Idealize.ShloMosaic.TcCoe Idealize.SL.Sem
open Idealize.ShloMosaic.Pipeline (Dat)

/-! # The first hidden layer's region: bias, clamp at zero, times the weights

The grid has 25 points. Point `t` reads rows 4000·t … 4000·t + 3999 of the [100000,128] activations, the whole
[1,128] bias row, the whole [128,128] weight matrix, and writes rows 4000·t … 4000·t + 3999 of the [100000,128]
result. An entry (r, q) of the result depends on row r of the activations, the bias row and column q of the weights
only, and the 25 blocks of rows tile the array: the array the region leaves is the layer, entry by entry. -/

variable (V : (c : Dev nD) → (b : Ref sig .tc) → Buf (Elt Ideal) ((c : Thread nD τ).loc b))

/-- The block indices over the 25 points: the activations' and the result's blocks move together along the rows and
    never along the columns; the bias's and the weights' blocks never move; the result's row block at point `t` is
    block `t`. -/
theorem blockIndex1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the whole layer of the arrays the region finds. -/
theorem flushed1 (c : Dev nD) (t : Fin cfg1.N) :
    (dat1 (F := Ideal) V c).flushed 3 t
      = ((cfg1.win 3).blk t).view.read (Elt Ideal) (hidden (V c main_v51) (V c main_v33) (V c main_v29)) := by
  show (cfg1.win 3).cut (grid1.coords t) ((dat1 (F := Ideal) V c).after 3 t) = _
  rw [after1_3]
  unfold out1_3
  rw [View.canon_unit_zero zero_offsets]
  simp only [View.ld_unit_zero (S := S4000x128) zero_offsets, View.ld_unit_zero (S := S1x128) zero_offsets,
    View.ld_unit_zero (S := S128x128) zero_offsets]
  obtain ⟨e00, e01, e10, e11, e20, e21, e30, e31⟩ := blockIndex1 t
  funext j
  obtain ⟨p, q, rfl⟩ : ∃ (p : Fin 4000) (q : Fin 128), j = ix2 p q := ⟨j 0, j 1, eq_ix2 j⟩
  refine k1_pay1_entry (V c main_v51) (V c main_v33) (V c main_v29) (iblk1 V c 0 t) (iblk1 V c 1 t) (iblk1 V c 2 t)
    (((cfg1.win 3).blk t).view.emb (ix2 p q)) p q (fun k => ?_) (fun k => ?_) (fun k => ?_)
  · show V c main_v51 (((cfg1.win 0).blk t).view.emb (ix2 p k)) = V c main_v51 _
    refine congrArg (V c main_v51) (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * k.val = k.val; omega
  · show V c main_v33 (((cfg1.win 1).blk t).view.emb (ix2 (0 : Fin 1) k)) = V c main_v33 _
    refine congrArg (V c main_v33) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_v29 (((cfg1.win 2).blk t).view.emb (ix2 k q)) = V c main_v29 _
    refine congrArg (V c main_v29) (funext fun a => Fin.ext ?_)
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega

/-- An index of the result is in point `t`'s block iff each coordinate is in the block's range on its axis. -/
theorem mem_block1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v52).slice (win1_3.rect t)).set ↔ _
  rw [View.set_slice_whole, Rect.mem_set_unit]
  exact Iff.rfl

/-- Row r lies in the block of point r / 4000: the 25 blocks tile the array. -/
theorem cover1 (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  have hN : cfg1.N = 25 := N_1
  obtain ⟨t, ht⟩ : ∃ t : Fin cfg1.N, t.val = (i 0).val / 4000 := ⟨⟨(i 0).val / 4000, by omega⟩, rfl⟩
  obtain ⟨-, -, -, -, -, -, e30, e31⟩ := blockIndex1 t
  refine ⟨t, flush1_3 t, ?_⟩
  rw [mem_block1]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 128 ≤ (i 1).val ∧ (i 1).val < win1_3.index t (1 : Fin 2) * 128 + 128
    omega

/-- The array the region leaves is the whole layer. -/
theorem final1 (c : Dev nD) :
    (dat1 (F := Ideal) V c).arrAt 3 cfg1.N = hidden (V c main_v51) (V c main_v33) (V c main_v29) :=
  (dat1 (F := Ideal) V c).arrAt_eq_of_cover 3 (hidden (V c main_v51) (V c main_v33) (V c main_v29)) (fun t _ => flushed1 V c t) cover1

/-- Region 1: each entry of the output array is the row of the activations plus the bias, clamped below at zero, against the
    column of the weights. -/
theorem layer1 (c : Dev nD) (A : (⟨S100000x128, .f32⟩ : BufTy).Contents (Elt Ideal)) (B : (⟨S1x128, .f32⟩ : BufTy).Contents (Elt Ideal))
    (W : (⟨S128x128, .bf16⟩ : BufTy).Contents (Elt Ideal))
    (hA : V c main_v51 = A) (hB : V c main_v33 = B) (hW : V c main_v29 = W) (r : Fin 100000) (q : Fin 128) :
    (dat1 (F := Ideal) V c).arrAt 3 cfg1.N (ix2 r q)
      = ∑ k : Fin 128, max (A (ix2 r k) + B (ix2 0 k)) (Ideal.ofBits .f32 0x00000000#32) * W (ix2 k q) := by
  subst hA hB hW
  exact (congrFun (final1 V c) (ix2 r q)).trans (hidden_ix2 _ _ _ r q)

end Cert.KernelIdeal.DenseValue

end
-- ==== Proof.DenseRegion2.lean ====
import proofs.«156880_j83597243449354_1_alg».proof.Proof.Gen.KernelIdeal.Frame
import proofs.«156880_j83597243449354_1_alg».proof.Proof.DenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen Idealize.ShloMosaic Idealize.ShloMosaic.ValueIdx
open Idealize.ShloMosaic.TcCoe Idealize.SL.Sem
open Idealize.ShloMosaic.Pipeline (Dat)

/-! # The second hidden layer's region: bias, clamp at zero, times the weights

The grid has 25 points. Point `t` reads rows 4000·t … 4000·t + 3999 of the [100000,128] activations, the whole
[1,128] bias row, the whole [128,128] weight matrix, and writes rows 4000·t … 4000·t + 3999 of the [100000,128]
result. An entry (r, q) of the result depends on row r of the activations, the bias row and column q of the weights
only, and the 25 blocks of rows tile the array: the array the region leaves is the layer, entry by entry. -/

variable (V : (c : Dev nD) → (b : Ref sig .tc) → Buf (Elt Ideal) ((c : Thread nD τ).loc b))

/-- The block indices over the 25 points: the activations' and the result's blocks move together along the rows and
    never along the columns; the bias's and the weights' blocks never move; the result's row block at point `t` is
    block `t`. -/
theorem blockIndex2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point `t` writes back is block `t` of the whole layer of the arrays the region finds. -/
theorem flushed2 (c : Dev nD) (t : Fin cfg2.N) :
    (dat2 (F := Ideal) V c).flushed 3 t
      = ((cfg2.win 3).blk t).view.read (Elt Ideal) (hidden (V c main_v65) (V c main_v34) (V c main_v30)) := by
  show (cfg2.win 3).cut (grid2.coords t) ((dat2 (F := Ideal) V c).after 3 t) = _
  rw [after2_3]
  unfold out2_3
  rw [View.canon_unit_zero zero_offsets]
  simp only [View.ld_unit_zero (S := S4000x128) zero_offsets, View.ld_unit_zero (S := S1x128) zero_offsets,
    View.ld_unit_zero (S := S128x128) zero_offsets]
  obtain ⟨e00, e01, e10, e11, e20, e21, e30, e31⟩ := blockIndex2 t
  funext j
  obtain ⟨p, q, rfl⟩ : ∃ (p : Fin 4000) (q : Fin 128), j = ix2 p q := ⟨j 0, j 1, eq_ix2 j⟩
  refine (congrFun (k2_pay1_eq (iblk2 V c 0 t) (iblk2 V c 1 t) (iblk2 V c 2 t)) (ix2 p q)).trans ?_
  refine k1_pay1_entry (V c main_v65) (V c main_v34) (V c main_v30) (iblk2 V c 0 t) (iblk2 V c 1 t) (iblk2 V c 2 t)
    (((cfg2.win 3).blk t).view.emb (ix2 p q)) p q (fun k => ?_) (fun k => ?_) (fun k => ?_)
  · show V c main_v65 (((cfg2.win 0).blk t).view.emb (ix2 p k)) = V c main_v65 _
    refine congrArg (V c main_v65) (funext fun a => Fin.ext ?_)
    match a with
    | ⟨0, _⟩ => show win2_0.index t (0 : Fin 2) * 4000 + 1 * p.val = win2_3.index t (0 : Fin 2) * 4000 + 1 * p.val; omega
    | ⟨1, _⟩ => show win2_0.index t (1 : Fin 2) * 128 + 1 * k.val = k.val; omega
  · show V c main_v34 (((cfg2.win 1).blk t).view.emb (ix2 (0 : Fin 1) k)) = V c main_v34 _
    refine congrArg (V c main_v34) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_v30 (((cfg2.win 2).blk t).view.emb (ix2 k q)) = V c main_v30 _
    refine congrArg (V c main_v30) (funext fun a => Fin.ext ?_)
    match a with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega

/-- An index of the result is in point `t`'s block iff each coordinate is in the block's range on its axis. -/
theorem mem_block2 (t : Fin cfg2.N) (i : S100000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v66).slice (win2_3.rect t)).set ↔ _
  rw [View.set_slice_whole, Rect.mem_set_unit]
  exact Iff.rfl

/-- Row r lies in the block of point r / 4000: the 25 blocks tile the array. -/
theorem cover2 (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 25 := N_2
  obtain ⟨t, ht⟩ : ∃ t : Fin cfg2.N, t.val = (i 0).val / 4000 := ⟨⟨(i 0).val / 4000, by omega⟩, rfl⟩
  obtain ⟨-, -, -, -, -, -, e30, e31⟩ := blockIndex2 t
  refine ⟨t, flush2_3 t, ?_⟩
  rw [mem_block2]
  intro a
  match a with
  | ⟨0, _⟩ =>
    show win2_3.index t (0 : Fin 2) * 4000 ≤ (i 0).val ∧ (i 0).val < win2_3.index t (0 : Fin 2) * 4000 + 4000
    omega
  | ⟨1, _⟩ =>
    show win2_3.index t (1 : Fin 2) * 128 ≤ (i 1).val ∧ (i 1).val < win2_3.index t (1 : Fin 2) * 128 + 128
    omega

/-- The array the region leaves is the whole layer. -/
theorem final2 (c : Dev nD) :
    (dat2 (F := Ideal) V c).arrAt 3 cfg2.N = hidden (V c main_v65) (V c main_v34) (V c main_v30) :=
  (dat2 (F := Ideal) V c).arrAt_eq_of_cover 3 (hidden (V c main_v65) (V c main_v34) (V c main_v30)) (fun t _ => flushed2 V c t) cover2

/-- Region 2: each entry of the output array is the row of the activations plus the bias, clamped below at zero, against the
    column of the weights. -/
theorem layer2 (c : Dev nD) (A : (⟨S100000x128, .f32⟩ : BufTy).Contents (Elt Ideal)) (B : (⟨S1x128, .f32⟩ : BufTy).Contents (Elt Ideal))
    (W : (⟨S128x128, .bf16⟩ : BufTy).Contents (Elt Ideal))
    (hA : V c main_v65 = A) (hB : V c main_v34 = B) (hW : V c main_v30 = W) (r : Fin 100000) (q : Fin 128) :
    (dat2 (F := Ideal) V c).arrAt 3 cfg2.N (ix2 r q)
      = ∑ k : Fin 128, max (A (ix2 r k) + B (ix2 0 k)) (Ideal.ofBits .f32 0x00000000#32) * W (ix2 k q) := by
  subst hA hB hW
  exact (congrFun (final2 V c) (ix2 r q)).trans (hidden_ix2 _ _ _ r q)

end Cert.KernelIdeal.DenseValue

end
-- ==== Proof.DenseRegion3.lean ====
import proofs.«156880_j83597243449354_1_alg».proof.Proof.Gen.KernelIdeal.Frame
import proofs.«156880_j83597243449354_1_alg».proof.Proof.DenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen Idealize.ShloMosaic Idealize.ShloMosaic.ValueIdx
open Idealize.ShloMosaic.TcCoe Idealize.SL.Sem
open Idealize.ShloMosaic.Pipeline (Dat)

/-! # The third hidden layer's region: bias, clamp at zero, times the weights

The grid has 25 points. Point `t` reads rows 4000·t … 4000·t + 3999 of the [100000,128] activations, the whole
[1,128] bias row, the whole [128,128] weight matrix, and writes rows 4000·t … 4000·t + 3999 of the [100000,128]
result. An entry (r, q) of the result depends on row r of the activations, the bias row and column q of the weights
only, and the 25 blocks of rows tile the array: the array the region leaves is the layer, entry by entry. -/

variable (V : (c : Dev nD) → (b : Ref sig .tc) → Buf (Elt Ideal) ((c : Thread nD τ).loc b))

/-- The block indices over the 25 points: the activations' and the result's blocks move together along the rows and
    never along the columns; the bias's and the weights' blocks never move; the result's row block at point `t` is
    block `t`. -/
theorem blockIndex3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point `t` writes back is block `t` of the whole layer of the arrays the region finds. -/
theorem flushed3 (c : Dev nD) (t : Fin cfg3.N) :
    (dat3 (F := Ideal) V c).flushed 3 t
      = ((cfg3.win 3).blk t).view.read (Elt Ideal) (hidden (V c main_v79) (V c main_v35) (V c main_v31)) := by
  show (cfg3.win 3).cut (grid3.coords t) ((dat3 (F := Ideal) V c).after 3 t) = _
  rw [after3_3]
  unfold out3_3
  rw [View.canon_unit_zero zero_offsets]
  simp only [View.ld_unit_zero (S := S4000x128) zero_offsets, View.ld_unit_zero (S := S1x128) zero_offsets,
    View.ld_unit_zero (S := S128x128) zero_offsets]
  obtain ⟨e00, e01, e10, e11, e20, e21, e30, e31⟩ := blockIndex3 t
  funext j
  obtain ⟨p, q, rfl⟩ : ∃ (p : Fin 4000) (q : Fin 128), j = ix2 p q := ⟨j 0, j 1, eq_ix2 j⟩
  refine (congrFun (k3_pay1_eq (iblk3 V c 0 t) (iblk3 V c 1 t) (iblk3 V c 2 t)) (ix2 p q)).trans ?_
  refine k1_pay1_entry (V c main_v79) (V c main_v35) (V c main_v31) (iblk3 V c 0 t) (iblk3 V c 1 t) (iblk3 V c 2 t)
    (((cfg3.win 3).blk t).view.emb (ix2 p q)) p q (fun k => ?_) (fun k => ?_) (fun k => ?_)
  · show V c main_v79 (((cfg3.win 0).blk t).view.emb (ix2 p k)) = V c main_v79 _
    refine congrArg (V c main_v79) (funext fun a => Fin.ext ?_)
    match a with
    | ⟨0, _⟩ => show win3_0.index t (0 : Fin 2) * 4000 + 1 * p.val = win3_3.index t (0 : Fin 2) * 4000 + 1 * p.val; omega
    | ⟨1, _⟩ => show win3_0.index t (1 : Fin 2) * 128 + 1 * k.val = k.val; omega
  · show V c main_v35 (((cfg3.win 1).blk t).view.emb (ix2 (0 : Fin 1) k)) = V c main_v35 _
    refine congrArg (V c main_v35) (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  · show V c main_v31 (((cfg3.win 2).blk t).view.emb (ix2 k q)) = V c main_v31 _
    refine congrArg (V c main_v31) (funext fun a => Fin.ext ?_)
    match a with
    | ⟨0, _⟩ => show win3_2.index t (0 : Fin 2) * 128 + 1 * k.val = k.val; omega
    | ⟨1, _⟩ => show win3_2.index t (1 : Fin 2) * 128 + 1 * q.val = win3_3.index t (1 : Fin 2) * 128 + 1 * q.val; omega

/-- An index of the result is in point `t`'s block iff each coordinate is in the block's range on its axis. -/
theorem mem_block3 (t : Fin cfg3.N) (i : S100000x128.Idx) :
    i ∈ ((cfg3.win 3).blk t).view.set ↔ ∀ a : Fin 2, win3_3.index t a * S4000x128.size a ≤ (i a).val
      ∧ (i a).val < win3_3.index t a * S4000x128.size a + S4000x128.size a := by
  show i ∈ ((View.whole main_v80).slice (win3_3.rect t)).set ↔ _
  rw [View.set_slice_whole, Rect.mem_set_unit]
  exact Iff.rfl

/-- Row r lies in the block of point r / 4000: the 25 blocks tile the array. -/
theorem cover3 (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 25 := N_3
  obtain ⟨t, ht⟩ : ∃ t : Fin cfg3.N, t.val = (i 0).val / 4000 := ⟨⟨(i 0).val / 4000, by omega⟩, rfl⟩
  obtain ⟨-, -, -, -, -, -, e30, e31⟩ := blockIndex3 t
  refine ⟨t, flush3_3 t, ?_⟩
  rw [mem_block3]
  intro a
  match a with
  | ⟨0, _⟩ =>
    show win3_3.index t (0 : Fin 2) * 4000 ≤ (i 0).val ∧ (i 0).val < win3_3.index t (0 : Fin 2) * 4000 + 4000
    omega
  | ⟨1, _⟩ =>
    show win3_3.index t (1 : Fin 2) * 128 ≤ (i 1).val ∧ (i 1).val < win3_3.index t (1 : Fin 2) * 128 + 128
    omega

/-- The array the region leaves is the whole layer. -/
theorem final3 (c : Dev nD) :
    (dat3 (F := Ideal) V c).arrAt 3 cfg3.N = hidden (V c main_v79) (V c main_v35) (V c main_v31) :=
  (dat3 (F := Ideal) V c).arrAt_eq_of_cover 3 (hidden (V c main_v79) (V c main_v35) (V c main_v31)) (fun t _ => flushed3 V c t) cover3

/-- Region 3: each entry of the output array is the row of the activations plus the bias, clamped below at zero, against the
    column of the weights. -/
theorem layer3 (c : Dev nD) (A : (⟨S100000x128, .f32⟩ : BufTy).Contents (Elt Ideal)) (B : (⟨S1x128, .f32⟩ : BufTy).Contents (Elt Ideal))
    (W : (⟨S128x128, .bf16⟩ : BufTy).Contents (Elt Ideal))
    (hA : V c main_v79 = A) (hB : V c main_v35 = B) (hW : V c main_v31 = W) (r : Fin 100000) (q : Fin 128) :
    (dat3 (F := Ideal) V c).arrAt 3 cfg3.N (ix2 r q)
      = ∑ k : Fin 128, max (A (ix2 r k) + B (ix2 0 k)) (Ideal.ofBits .f32 0x00000000#32) * W (ix2 k q) := by
  subst hA hB hW
  exact (congrFun (final3 V c) (ix2 r q)).trans (hidden_ix2 _ _ _ r q)

end Cert.KernelIdeal.DenseValue

end
-- ==== Proof.ActRegion4.lean ====
import proofs.«156880_j83597243449354_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The bias-and-clamp region: every entry plus the bias of its column, clamped below at zero -/

/-- An access of a whole block starts at offset zero on both axes. -/
theorem act_off_zero : (![0, 0] : Fin 2 → Nat) = fun _ => 0 := funext fun a => by fin_cases a <;> rfl

/-- Row `p`, column `q` of what the body stores: the block's entry there plus the bias row's entry of column `q`,
    clamped below at zero. -/
theorem act_entry (x0 : FVec Ideal S4000x128 .f32) (x1 : FVec Ideal S1x128 .f32) (p : Fin 4000) (q : Fin 128) :
    k4_pay1 (F := Ideal) x0 x1 (ix2 p q) = max (x0 (ix2 p q) + x1 (ix2 (0 : Fin 1) q)) (Ideal.ofBits .f32 0x00000000#32) := by
  unfold k4_pay1
  simp only [shapeCast_self]
  rw [maximumf_apply, addf_apply, broadcast_apply, broadcastTo_1b_ab_apply]
  rfl

/-- The same at any index of the block: the bias is read at the index's column. -/
theorem act_block (x0 : FVec Ideal S4000x128 .f32) (x1 : FVec Ideal S1x128 .f32) :
    k4_pay1 (F := Ideal) x0 x1 = fun j => max (x0 j + x1 (ix2 (0 : Fin 1) (⟨(j 1).val, idx2_lt1 j⟩ : Fin 128))) (Ideal.ofBits .f32 0x00000000#32) := by
  funext j
  obtain ⟨p, q, rfl⟩ : ∃ (p : Fin 4000) (q : Fin 128), j = ix2 p q := ⟨j 0, j 1, eq_ix2 j⟩
  exact act_entry x0 x1 p q

/-- An entry plus a bias, clamped below at zero. -/
abbrev actVal (a b : EReal) : EReal := max (a + b) (Ideal.ofBits .f32 0x00000000#32)

/-- The whole array the region leaves, index by index: the first operand's entry plus the bias of its column,
    clamped below at zero. -/
def actArr (A : (⟨S100000x128, .f32⟩ : BufTy).Contents (Elt Ideal)) (B : (⟨S1x128, .f32⟩ : BufTy).Contents (Elt Ideal)) :
    (⟨S100000x128, .f32⟩ : BufTy).Contents (Elt Ideal) :=
  fun i => max (A i + B (ix2 (0 : Fin 1) (⟨(i 1).val, idx2_lt1 i⟩ : Fin 128))) (Ideal.ofBits .f32 0x00000000#32)

/-- The block index maps over the 25 grid points: the first operand's block moves with the result's, which is block
    `t` of the rows and the only block of the columns; the bias row's block never moves. -/
theorem act_idx : ∀ t : Fin cfg4.N, win4_0.index t (0 : Fin 2) = win4_2.index t (0 : Fin 2)
    ∧ win4_0.index t (1 : Fin 2) = win4_2.index t (1 : Fin 2)
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What grid point `t` writes back is block `t` of `actArr` of the two operand arrays as the region finds them. -/
theorem act_flushed (c : Dev nD) (t : Fin cfg4.N) :
    (dat4 (F := Ideal) V c).flushed 2 t
      = ((cfg4.win 2).blk t).view.read (Elt Ideal) (actArr (V c main_v93) (V c main_v36)) := by
  show (cfg4.win 2).cut (grid4.coords t) ((dat4 V c).after 2 t) = _
  rw [after4_2]
  unfold out4_2
  rw [View.canon_unit_zero act_off_zero]
  simp only [View.ld_unit_zero (S := S4000x128) act_off_zero, View.ld_unit_zero (S := S1x128) act_off_zero]
  rw [act_block]
  obtain ⟨e0, e1, e2, e3, e4, e5⟩ := act_idx t
  funext j
  show actVal (V c main_v93 (((cfg4.win 0).blk t).view.emb j))
      (V c main_v36 (((cfg4.win 1).blk t).view.emb (ix2 (0 : Fin 1) (⟨(j 1).val, (j 1).isLt⟩ : Fin 128))))
    = actArr (V c main_v93) (V c main_v36) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb (ix2 (0 : Fin 1) (⟨(j 1).val, (j 1).isLt⟩ : Fin 128))
      = ix2 (0 : Fin 1) (⟨((((cfg4.win 2).blk t).view.emb j) 1).val, idx2_lt1 _⟩ : Fin 128) := by
    funext a; apply Fin.ext
    match a with
    | ⟨0, _⟩ => show win4_1.index t (0 : Fin 2) * 1 + 1 * 0 = 0; omega
    | ⟨1, _⟩ => show win4_1.index t (1 : Fin 2) * 128 + 1 * (j 1).val = win4_2.index t (1 : Fin 2) * 128 + 1 * (j 1).val; omega
  rw [h0, h1]
  rfl

/-- An index of the array lies in grid point `t`'s block iff each coordinate lies in the block's range on its axis. -/
theorem act_mem_blk (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v94).slice (win4_2.rect t)).set ↔ _
  rw [View.set_slice_whole, Rect.mem_set_unit]
  exact Iff.rfl

/-- Every index is in some grid point's block: row `r` is in block `r / 4000`. -/
theorem act_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 25 := N_4
  let t : Fin cfg4.N := ⟨(i 0).val / 4000, by show (i 0).val / 4000 < grid4.N; omega⟩
  obtain ⟨e0, e1, e2, e3, e4, e5⟩ := act_idx t
  have e4' : win4_2.index t (0 : Fin 2) = (i 0).val / 4000 := e4
  refine ⟨t, flush4_2 t, ?_⟩
  rw [act_mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- The array after the region is `actArr` of the two operand arrays as the region finds them. -/
theorem act_final (c : Dev nD) :
    (dat4 (F := Ideal) V c).arrAt 2 cfg4.N = actArr (V c main_v93) (V c main_v36) :=
  (dat4 (F := Ideal) V c).arrAt_eq_of_cover 2 (actArr (V c main_v93) (V c main_v36)) (fun t _ => act_flushed V c t) act_cover

/-- Region 4 (bias and clamp; 25 grid points; windows: 0 = the [100000,128] operand in blocks of 4000 rows, 1 = the [1,128]
    bias row, output 2 = the [100000,128] result): the entry plus the bias of its column, clamped below at zero. -/
theorem act4 (c : Dev nD) (A : (⟨S100000x128, .f32⟩ : BufTy).Contents (Elt Ideal)) (B : (⟨S1x128, .f32⟩ : BufTy).Contents (Elt Ideal))
    (hA : V c main_v93 = A) (hB : V c main_v36 = B) (r : Fin 100000) (q : Fin 128) :
    (dat4 (F := Ideal) V c).arrAt 2 cfg4.N (ix2 r q) = max (A (ix2 r q) + B (ix2 0 q)) (Ideal.ofBits .f32 0x00000000#32) := by
  rw [act_final V c, hA, hB]
  rfl

end Cert.KernelIdeal.PoolValue

end
-- ==== Proof.PoolEntry.lean ====
import proofs.«156880_j83597243449354_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen Idealize.ShloMosaic Idealize.ShloMosaic.ValueIdx
open Idealize.ShloMosaic.TcCoe Idealize.SL.Sem
open Idealize.ShloMosaic.Pipeline (Dat)

/-! ## The pooling region's arithmetic: the row of means against the column of the weights, plus the bias of the column -/

/-- An `[a, 1]` column broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate under the product's dimension numbers is the result's row. -/
theorem pool_lhs_row (i : S1024x2.Idx) (q : dot_S1024x128_S128x2_S1024x2_1_0_0_1_n_n.contr.Idx) :
    (dot_S1024x128_S128x2_S1024x2_1_0_0_1_n_n.lhsIdx i q 0).val = (i 0).val := by
  unfold DotDims.lhsIdx
  rw [dif_neg (show ¬(0 : Fin S1024x128.rank) ∈ dot_S1024x128_S128x2_S1024x2_1_0_0_1_n_n.lhsBatch by decide),
    dif_pos (show (0 : Fin S1024x128.rank) ∈ dot_S1024x128_S128x2_S1024x2_1_0_0_1_n_n.lhsNonContracting by decide)]
  rfl

/-- The right operand's column coordinate under the product's dimension numbers is the result's column. -/
theorem pool_rhs_col (i : S1024x2.Idx) (q : dot_S1024x128_S128x2_S1024x2_1_0_0_1_n_n.contr.Idx) :
    (dot_S1024x128_S128x2_S1024x2_1_0_0_1_n_n.rhsIdx i q 1).val = (i 1).val := by
  unfold DotDims.rhsIdx
  rw [dif_neg (show ¬(1 : Fin S128x2.rank) ∈ dot_S1024x128_S128x2_S1024x2_1_0_0_1_n_n.rhsBatch by decide),
    dif_pos (show (1 : Fin S128x2.rank) ∈ dot_S1024x128_S128x2_S1024x2_1_0_0_1_n_n.rhsNonContracting by decide)]
  rfl

/-- The matrix product into a zero accumulator, read at `(g, o)`: row `g` of the left operand against column `o` of
    the right one, summed over the 128 contracted positions. -/
theorem pool_matmul (l : FVec Ideal S1024x128 .bf16) (r : FVec Ideal S128x2 .bf16) (g : Fin 1024) (o : Fin 2) :
    matmul dot_S1024x128_S128x2_S1024x2_1_0_0_1_n_n none l r (constant (F := Ideal) S1024x2 .f32 0x00000000#32) (ix2 g o)
      = ∑ k : Fin 128, l (ix2 g k) * r (ix2 k o) := by
  refine (Ideal.matmul_constant_zero_apply dot_S1024x128_S128x2_S1024x2_1_0_0_1_n_n none l r (ix2 g o)).trans ?_
  rw [← Equiv.sum_comp (contrEquiv1 dot_S1024x128_S128x2_S1024x2_1_0_0_1_n_n 128 rfl rfl).symm]
  refine Finset.sum_congr rfl fun k _ => ?_
  have hk := contrEquiv1_symm_val dot_S1024x128_S128x2_S1024x2_1_0_0_1_n_n 128 rfl rfl k
  have el : dot_S1024x128_S128x2_S1024x2_1_0_0_1_n_n.lhsIdx (ix2 g o) ((contrEquiv1 dot_S1024x128_S128x2_S1024x2_1_0_0_1_n_n 128 rfl rfl).symm k) = ix2 g k :=
    funext fun a => Fin.ext (by
      match a with
      | ⟨0, _⟩ => exact pool_lhs_row _ _
      | ⟨1, _⟩ => exact (dot_S1024x128_S128x2_S1024x2_1_0_0_1_n_n.lhsIdx_val_of_single rfl _ _).trans hk)
  have er : dot_S1024x128_S128x2_S1024x2_1_0_0_1_n_n.rhsIdx (ix2 g o) ((contrEquiv1 dot_S1024x128_S128x2_S1024x2_1_0_0_1_n_n 128 rfl rfl).symm k) = ix2 k o :=
    funext fun a => Fin.ext (by
      match a with
      | ⟨0, _⟩ => exact (dot_S1024x128_S128x2_S1024x2_1_0_0_1_n_n.rhsIdx_val_of_single rfl _ _).trans hk
      | ⟨1, _⟩ => exact pool_rhs_col _ _)
  rw [el, er]

/-- Row `g`, column `o` of what the body stores: the sums of row `g`, each divided by the row's count clamped below at
    one, against column `o` of the weights, plus the bias of column `o`. -/
theorem pool_entry (x0 : FVec Ideal S1024x128 .f32) (x1 : FVec Ideal S1024x1 .f32) (x2 : FVec Ideal S128x2 .bf16)
    (x3 : FVec Ideal S1x2 .f32) (g : Fin 1024) (o : Fin 2) :
    k5_pay1 (F := Ideal) x0 x1 x2 x3 (ix2 g o)
      = (∑ k : Fin 128, Ideal.div (x0 (ix2 g k)) (max (x1 (ix2 g (0 : Fin 1))) (Ideal.ofBits .f32 0x3F800000#32)) * x2 (ix2 k o))
        + x3 (ix2 (0 : Fin 1) o) := by
  unfold k5_pay1
  simp only [shapeCast_self]
  rw [addf_apply, broadcastTo_1b_ab_apply]
  refine congrArg (· + x3 (ix2 (0 : Fin 1) o)) ?_
  refine (pool_matmul _ _ g o).trans ?_
  refine Finset.sum_congr rfl fun k _ => ?_
  rw [truncf_apply, divf_apply, broadcastTo_a1_ab_apply, maximumf_apply, broadcast_apply]
  rfl

end Cert.KernelIdeal.PoolValue

end
-- ==== Proof.PoolRegion5.lean ====
import proofs.«156880_j83597243449354_1_alg».proof.Proof.Gen.KernelIdeal.Frame
import proofs.«156880_j83597243449354_1_alg».proof.Proof.PoolEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The pooling region: one grid point, every block its whole array -/

/-- An access of a whole block starts at offset zero on both axes. -/
theorem pool_off_zero : (![0, 0] : Fin 2 → Nat) = fun _ => 0 := funext fun a => by fin_cases a <;> rfl

/-- The whole [1024,2] array the region leaves, index by index: the sums of the index's row, each divided by the row's
    count clamped below at one, against the index's column of the weights, plus the bias of that column. -/
def poolArr (S : (⟨S1024x128, .f32⟩ : BufTy).Contents (Elt Ideal)) (N : (⟨S1024x1, .f32⟩ : BufTy).Contents (Elt Ideal))
    (W : (⟨S128x2, .bf16⟩ : BufTy).Contents (Elt Ideal)) (B : (⟨S1x2, .f32⟩ : BufTy).Contents (Elt Ideal)) :
    (⟨S1024x2, .f32⟩ : BufTy).Contents (Elt Ideal) :=
  fun i => (∑ k : Fin 128, Ideal.div (S (ix2 (⟨(i 0).val, idx2_lt0 i⟩ : Fin 1024) k))
        (max (N (ix2 (⟨(i 0).val, idx2_lt0 i⟩ : Fin 1024) (0 : Fin 1))) (Ideal.ofBits .f32 0x3F800000#32))
      * W (ix2 k (⟨(i 1).val, idx2_lt1 i⟩ : Fin 2)))
    + B (ix2 (0 : Fin 1) (⟨(i 1).val, idx2_lt1 i⟩ : Fin 2))

/-- The body's stored block is `poolArr` of its four loaded blocks (the blocks are whole arrays). -/
theorem pool_block (x0 : FVec Ideal S1024x128 .f32) (x1 : FVec Ideal S1024x1 .f32) (x2 : FVec Ideal S128x2 .bf16)
    (x3 : FVec Ideal S1x2 .f32) : k5_pay1 (F := Ideal) x0 x1 x2 x3 = poolArr x0 x1 x2 x3 := by
  funext j
  obtain ⟨g, o, rfl⟩ : ∃ (g : Fin 1024) (o : Fin 2), j = ix2 g o := ⟨j 0, j 1, eq_ix2 j⟩
  exact pool_entry x0 x1 x2 x3 g o

/-- The block index maps at the one grid point: every window's block index is zero on both axes. -/
theorem pool_idx : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The sums' block is the sums' array. -/
theorem pool_iblk0 (c : Dev nD) (t : Fin cfg5.N) :
    (iblk5 V c 0 t : S1024x128.Idx → EReal) = (V c main_v101 : S1024x128.Idx → EReal) := by
  obtain ⟨e0, e1, -⟩ := pool_idx t
  funext y
  unfold iblk5
  rw [View.read_apply]
  show V c main_v101 _ = V c main_v101 y
  congr 1
  funext a; apply Fin.ext
  match a with
  | ⟨0, _⟩ => show win5_0.index t (0 : Fin 2) * 1024 + 1 * (y 0).val = (y 0).val; omega
  | ⟨1, _⟩ => show win5_0.index t (1 : Fin 2) * 128 + 1 * (y 1).val = (y 1).val; omega

/-- The counts' block is the counts' array. -/
theorem pool_iblk1 (c : Dev nD) (t : Fin cfg5.N) :
    (iblk5 V c 1 t : S1024x1.Idx → EReal) = (V c main_v102 : S1024x1.Idx → EReal) := by
  obtain ⟨-, -, e0, e1, -⟩ := pool_idx t
  funext y
  unfold iblk5
  rw [View.read_apply]
  show V c main_v102 _ = V c main_v102 y
  congr 1
  funext a; apply Fin.ext
  match a with
  | ⟨0, _⟩ => show win5_1.index t (0 : Fin 2) * 1024 + 1 * (y 0).val = (y 0).val; omega
  | ⟨1, _⟩ => show win5_1.index t (1 : Fin 2) * 1 + 1 * (y 1).val = (y 1).val; omega

/-- The weights' block is the weights' array. -/
theorem pool_iblk2 (c : Dev nD) (t : Fin cfg5.N) :
    (iblk5 V c 2 t : S128x2.Idx → EReal) = (V c main_v32 : S128x2.Idx → EReal) := by
  obtain ⟨-, -, -, -, e0, e1, -⟩ := pool_idx t
  funext y
  unfold iblk5
  rw [View.read_apply]
  show V c main_v32 _ = V c main_v32 y
  congr 1
  funext a; apply Fin.ext
  match a with
  | ⟨0, _⟩ => show win5_2.index t (0 : Fin 2) * 128 + 1 * (y 0).val = (y 0).val; omega
  | ⟨1, _⟩ => show win5_2.index t (1 : Fin 2) * 2 + 1 * (y 1).val = (y 1).val; omega

/-- The bias row's block is the bias row. -/
theorem pool_iblk3 (c : Dev nD) (t : Fin cfg5.N) :
    (iblk5 V c 3 t : S1x2.Idx → EReal) = (V c main_v37 : S1x2.Idx → EReal) := by
  obtain ⟨-, -, -, -, -, -, e0, e1, -⟩ := pool_idx t
  funext y
  unfold iblk5
  rw [View.read_apply]
  show V c main_v37 _ = V c main_v37 y
  congr 1
  funext a; apply Fin.ext
  match a with
  | ⟨0, _⟩ => show win5_3.index t (0 : Fin 2) * 1 + 1 * (y 0).val = (y 0).val; omega
  | ⟨1, _⟩ => show win5_3.index t (1 : Fin 2) * 2 + 1 * (y 1).val = (y 1).val; omega

/-- What the one grid point writes back is the (one, whole) block of `poolArr` of the four operand arrays as the region
    finds them. -/
theorem pool_flushed (c : Dev nD) (t : Fin cfg5.N) :
    (dat5 (F := Ideal) V c).flushed 4 t
      = ((cfg5.win 4).blk t).view.read (Elt Ideal) (poolArr (V c main_v101) (V c main_v102) (V c main_v32) (V c main_v37)) := by
  show (cfg5.win 4).cut (grid5.coords t) ((dat5 V c).after 4 t) = _
  rw [after5_4]
  unfold out5_4
  rw [View.canon_unit_zero pool_off_zero]
  simp only [View.ld_unit_zero (S := S1024x128) pool_off_zero, View.ld_unit_zero (S := S1024x1) pool_off_zero,
    View.ld_unit_zero (S := S128x2) pool_off_zero, View.ld_unit_zero (S := S1x2) pool_off_zero]
  rw [pool_block, pool_iblk0 V c t, pool_iblk1 V c t, pool_iblk2 V c t, pool_iblk3 V c t]
  obtain ⟨-, -, -, -, -, -, -, -, e0, e1⟩ := pool_idx t
  funext j
  show poolArr (V c main_v101) (V c main_v102) (V c main_v32) (V c main_v37) j
    = poolArr (V c main_v101) (V c main_v102) (V c main_v32) (V c main_v37) (((cfg5.win 4).blk t).view.emb j)
  have h4 : ((cfg5.win 4).blk t).view.emb j = j := by
    funext a; apply Fin.ext
    match a with
    | ⟨0, _⟩ => show win5_4.index t (0 : Fin 2) * 1024 + 1 * (j 0).val = (j 0).val; omega
    | ⟨1, _⟩ => show win5_4.index t (1 : Fin 2) * 2 + 1 * (j 1).val = (j 1).val; omega
  rw [h4]

/-- An index of the array lies in grid point `t`'s block iff each coordinate lies in the block's range on its axis. -/
theorem pool_mem_blk (t : Fin cfg5.N) (i : S1024x2.Idx) :
    i ∈ ((cfg5.win 4).blk t).view.set ↔ ∀ a : Fin 2, win5_4.index t a * S1024x2.size a ≤ (i a).val ∧ (i a).val < win5_4.index t a * S1024x2.size a + S1024x2.size a := by
  show i ∈ ((View.whole main_v103).slice (win5_4.rect t)).set ↔ _
  rw [View.set_slice_whole, Rect.mem_set_unit]
  exact Iff.rfl

/-- Every index is in the one grid point's block. -/
theorem pool_cover (i : S1024x2.Idx) :
    ∃ t : Fin cfg5.N, (cfg5.win 4).flush t = true ∧ i ∈ ((cfg5.win 4).blk t).view.set := by
  have hi0 : (i 0).val < 1024 := (i 0).isLt
  have hi1 : (i 1).val < 2 := (i 1).isLt
  obtain ⟨-, -, -, -, -, -, -, -, e0, e1⟩ := pool_idx t5_0
  refine ⟨t5_0, flush5_4 t5_0, ?_⟩
  rw [pool_mem_blk]
  intro a
  match a with
  | ⟨0, _⟩ => show win5_4.index t5_0 (0 : Fin 2) * 1024 ≤ (i 0).val ∧ (i 0).val < win5_4.index t5_0 (0 : Fin 2) * 1024 + 1024; omega
  | ⟨1, _⟩ => show win5_4.index t5_0 (1 : Fin 2) * 2 ≤ (i 1).val ∧ (i 1).val < win5_4.index t5_0 (1 : Fin 2) * 2 + 2; omega

/-- The array after the region is `poolArr` of the four operand arrays as the region finds them. -/
theorem pool_final (c : Dev nD) :
    (dat5 (F := Ideal) V c).arrAt 4 cfg5.N = poolArr (V c main_v101) (V c main_v102) (V c main_v32) (V c main_v37) :=
  (dat5 (F := Ideal) V c).arrAt_eq_of_cover 4 (poolArr (V c main_v101) (V c main_v102) (V c main_v32) (V c main_v37))
    (fun t _ => pool_flushed V c t) pool_cover

/-- Region 5 (mean-pool and linear map; ONE grid point, every block the whole array; windows: 0 = the [1024,128] sums,
    1 = the [1024,1] counts, 2 = the [128,2] weights, 3 = the [1,2] bias row, output 4 = the [1024,2] result): the row of
    means (sum / max(count, 1)) against the column of the weights, plus the bias of the column. -/
theorem pool5 (c : Dev nD) (S : (⟨S1024x128, .f32⟩ : BufTy).Contents (Elt Ideal)) (N : (⟨S1024x1, .f32⟩ : BufTy).Contents (Elt Ideal))
    (W : (⟨S128x2, .bf16⟩ : BufTy).Contents (Elt Ideal)) (B : (⟨S1x2, .f32⟩ : BufTy).Contents (Elt Ideal))
    (hS : V c main_v101 = S) (hN : V c main_v102 = N) (hW : V c main_v32 = W) (hB : V c main_v37 = B) (g : Fin 1024) (o : Fin 2) :
    (dat5 (F := Ideal) V c).arrAt 4 cfg5.N (ix2 g o)
      = (∑ k : Fin 128, Ideal.div (S (ix2 g k)) (max (N (ix2 g 0)) (Ideal.ofBits .f32 0x3F800000#32)) * W (ix2 k o)) + B (ix2 0 o) := by
  rw [pool_final V c, hS, hN, hW, hB]
  rfl

end Cert.KernelIdeal.PoolValue

end
-- ==== Proof.KernelBoundaries.lean ====
/-
  The kernel program's buffers at each segment boundary, named.

  The kernel program and the reference compute one function. Both derive, from the edge list, the source and
  destination indices and the edge weights by the same host operations; both aggregate with the same gather,
  scale and scatter-add, and pool with the same scatter-adds. Where the reference multiplies, adds a bias and
  clamps on the host, the kernel program does so in a region over blocks of rows, and a region leaves in its
  output array what the corresponding host operations compute, entry by entry. So, boundary by boundary, each
  buffer of the kernel program that a later segment reads holds a stage of the reference applied to the
  arguments' launch contents: after the first region the first product, after the second stretch the first
  aggregate, and so on to the output.
-/
import proofs.«156880_j83597243449354_1_alg».proof.Proof.Gen.KernelIdeal.Frame
import proofs.«156880_j83597243449354_1_alg».proof.Proof.Gen.ReferenceIdeal.Read
import proofs.«156880_j83597243449354_1_alg».proof.Proof.RefEntries
import proofs.«156880_j83597243449354_1_alg».proof.Proof.KernelKept
import proofs.«156880_j83597243449354_1_alg».proof.Proof.KernelRun
import proofs.«156880_j83597243449354_1_alg».proof.Proof.DenseRegion0
import proofs.«156880_j83597243449354_1_alg».proof.Proof.DenseRegion1
import proofs.«156880_j83597243449354_1_alg».proof.Proof.DenseRegion2
import proofs.«156880_j83597243449354_1_alg».proof.Proof.DenseRegion3
import proofs.«156880_j83597243449354_1_alg».proof.Proof.ActRegion4
import proofs.«156880_j83597243449354_1_alg».proof.Proof.PoolRegion5
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Boundary

open Cert.KernelIdeal Cert.KernelIdeal.Gen Cert.KernelIdeal.Kept
open Idealize.ShloMosaic Idealize.ShloMosaic.TcCoe Idealize.ShloMosaic.ValueIdx
open Cert.ReferenceIdeal.Read Cert.ReferenceIdeal.Entries

variable (m : (ℓ : Loc nD τ sig) → Buf (Elt Ideal) ℓ) (ρ : Dev nD → PrngReg) (c : Dev nD)

/-- The arguments' launch contents. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)

/-! ## What the first stretch leaves

The first stretch computes, from the edge list alone, the source and destination index vectors (the edges
followed by one self-loop per node) and the edge weights; it rounds the features and the weight matrices
(no change on the extended reals) and lays each bias out as a row. -/

theorem src1 : W1 m ρ c (Proc.devRef .tc main_v3) = val_main_v3 (F := Ideal) (x1 m c) := by
  dsimp only [W1, hostOps0]; after_results_simp; rfl
theorem dst1 : W1 m ρ c (Proc.devRef .tc main_v6) = val_main_v6 (F := Ideal) (x1 m c) := by
  dsimp only [W1, hostOps0]; after_results_simp; rfl
theorem norm1 : W1 m ρ c (Proc.devRef .tc main_v26) = val_main_v26 (F := Ideal) (x1 m c) := by
  dsimp only [W1, hostOps0]; after_results_simp; rfl
theorem feat1 : W1 m ρ c (Proc.devRef .tc main_v27) = x0 m c := by
  dsimp only [W1, hostOps0]; after_results_simp; rfl
theorem wgtA1 : W1 m ρ c (Proc.devRef .tc main_v28) = x3 m c := by
  dsimp only [W1, hostOps0]; after_results_simp; rfl
theorem wgtB1 : W1 m ρ c (Proc.devRef .tc main_v29) = x5 m c := by
  dsimp only [W1, hostOps0]; after_results_simp; rfl
theorem wgtC1 : W1 m ρ c (Proc.devRef .tc main_v30) = x7 m c := by
  dsimp only [W1, hostOps0]; after_results_simp; rfl
theorem wgtD1 : W1 m ρ c (Proc.devRef .tc main_v31) = x9 m c := by
  dsimp only [W1, hostOps0]; after_results_simp; rfl
theorem wgtE1 : W1 m ρ c (Proc.devRef .tc main_v32) = x11 m c := by
  dsimp only [W1, hostOps0]; after_results_simp; rfl
theorem biasA1 : W1 m ρ c (Proc.devRef .tc main_v33) = shapeCast S1x128 (x4 m c) shapeCasts_S128_S1x128 := by
  dsimp only [W1, hostOps0]; after_results_simp; rfl
theorem biasB1 : W1 m ρ c (Proc.devRef .tc main_v34) = shapeCast S1x128 (x6 m c) shapeCasts_S128_S1x128 := by
  dsimp only [W1, hostOps0]; after_results_simp; rfl
theorem biasC1 : W1 m ρ c (Proc.devRef .tc main_v35) = shapeCast S1x128 (x8 m c) shapeCasts_S128_S1x128 := by
  dsimp only [W1, hostOps0]; after_results_simp; rfl
theorem biasD1 : W1 m ρ c (Proc.devRef .tc main_v36) = shapeCast S1x128 (x10 m c) shapeCasts_S128_S1x128 := by
  dsimp only [W1, hostOps0]; after_results_simp; rfl
theorem biasE1 : W1 m ρ c (Proc.devRef .tc main_v37) = shapeCast S1x2 (x12 m c) shapeCasts_S2_S1x2 := by
  dsimp only [W1, hostOps0]; after_results_simp; rfl
theorem batch1 : W1 m ρ c (Proc.devRef .tc main_arg2) = x2 m c :=
  across_stretch0 m ρ c main_arg2 (by decide)

/-! ## A buffer no later segment touches, carried from the first boundary -/

section Carried
variable (r : Ref sig .tc)
theorem to2 (h0 : ∀ w, Pipeline.arrRef spec0 w ≠ r) : W2 m ρ c (Proc.devRef .tc r) = W1 m ρ c (Proc.devRef .tc r) :=
  across_region0 m ρ c r h0
theorem to3 (h0 : ∀ w, Pipeline.arrRef spec0 w ≠ r) (h1 : r ∉ written1) : W3 m ρ c (Proc.devRef .tc r) = W1 m ρ c (Proc.devRef .tc r) :=
  (across_stretch1 m ρ c r h1).trans (to2 m ρ c r h0)
theorem to4 (h0 : ∀ w, Pipeline.arrRef spec0 w ≠ r) (h1 : r ∉ written1) (g1 : ∀ w, Pipeline.arrRef spec1 w ≠ r) :
    W4 m ρ c (Proc.devRef .tc r) = W1 m ρ c (Proc.devRef .tc r) :=
  (across_region1 m ρ c r g1).trans (to3 m ρ c r h0 h1)
theorem to5 (h0 : ∀ w, Pipeline.arrRef spec0 w ≠ r) (h1 : r ∉ written1) (g1 : ∀ w, Pipeline.arrRef spec1 w ≠ r) (h2 : r ∉ written2) :
    W5 m ρ c (Proc.devRef .tc r) = W1 m ρ c (Proc.devRef .tc r) :=
  (across_stretch2 m ρ c r h2).trans (to4 m ρ c r h0 h1 g1)
theorem to6 (h0 : ∀ w, Pipeline.arrRef spec0 w ≠ r) (h1 : r ∉ written1) (g1 : ∀ w, Pipeline.arrRef spec1 w ≠ r) (h2 : r ∉ written2)
    (g2 : ∀ w, Pipeline.arrRef spec2 w ≠ r) : W6 m ρ c (Proc.devRef .tc r) = W1 m ρ c (Proc.devRef .tc r) :=
  (across_region2 m ρ c r g2).trans (to5 m ρ c r h0 h1 g1 h2)
theorem to7 (h0 : ∀ w, Pipeline.arrRef spec0 w ≠ r) (h1 : r ∉ written1) (g1 : ∀ w, Pipeline.arrRef spec1 w ≠ r) (h2 : r ∉ written2)
    (g2 : ∀ w, Pipeline.arrRef spec2 w ≠ r) (h3 : r ∉ written3) : W7 m ρ c (Proc.devRef .tc r) = W1 m ρ c (Proc.devRef .tc r) :=
  (across_stretch3 m ρ c r h3).trans (to6 m ρ c r h0 h1 g1 h2 g2)
theorem to8 (h0 : ∀ w, Pipeline.arrRef spec0 w ≠ r) (h1 : r ∉ written1) (g1 : ∀ w, Pipeline.arrRef spec1 w ≠ r) (h2 : r ∉ written2)
    (g2 : ∀ w, Pipeline.arrRef spec2 w ≠ r) (h3 : r ∉ written3) (g3 : ∀ w, Pipeline.arrRef spec3 w ≠ r) :
    W8 m ρ c (Proc.devRef .tc r) = W1 m ρ c (Proc.devRef .tc r) :=
  (across_region3 m ρ c r g3).trans (to7 m ρ c r h0 h1 g1 h2 g2 h3)
theorem to9 (h0 : ∀ w, Pipeline.arrRef spec0 w ≠ r) (h1 : r ∉ written1) (g1 : ∀ w, Pipeline.arrRef spec1 w ≠ r) (h2 : r ∉ written2)
    (g2 : ∀ w, Pipeline.arrRef spec2 w ≠ r) (h3 : r ∉ written3) (g3 : ∀ w, Pipeline.arrRef spec3 w ≠ r) (h4 : r ∉ written4) :
    W9 m ρ c (Proc.devRef .tc r) = W1 m ρ c (Proc.devRef .tc r) :=
  (across_stretch4 m ρ c r h4).trans (to8 m ρ c r h0 h1 g1 h2 g2 h3 g3)
theorem to10 (h0 : ∀ w, Pipeline.arrRef spec0 w ≠ r) (h1 : r ∉ written1) (g1 : ∀ w, Pipeline.arrRef spec1 w ≠ r) (h2 : r ∉ written2)
    (g2 : ∀ w, Pipeline.arrRef spec2 w ≠ r) (h3 : r ∉ written3) (g3 : ∀ w, Pipeline.arrRef spec3 w ≠ r) (h4 : r ∉ written4)
    (g4 : ∀ w, Pipeline.arrRef spec4 w ≠ r) : W10 m ρ c (Proc.devRef .tc r) = W1 m ρ c (Proc.devRef .tc r) :=
  (across_region4 m ρ c r g4).trans (to9 m ρ c r h0 h1 g1 h2 g2 h3 g3 h4)
theorem to11 (h0 : ∀ w, Pipeline.arrRef spec0 w ≠ r) (h1 : r ∉ written1) (g1 : ∀ w, Pipeline.arrRef spec1 w ≠ r) (h2 : r ∉ written2)
    (g2 : ∀ w, Pipeline.arrRef spec2 w ≠ r) (h3 : r ∉ written3) (g3 : ∀ w, Pipeline.arrRef spec3 w ≠ r) (h4 : r ∉ written4)
    (g4 : ∀ w, Pipeline.arrRef spec4 w ≠ r) (h5 : r ∉ written5) : W11 m ρ c (Proc.devRef .tc r) = W1 m ρ c (Proc.devRef .tc r) :=
  (across_stretch5 m ρ c r h5).trans (to10 m ρ c r h0 h1 g1 h2 g2 h3 g3 h4 g4)
end Carried

/-- A vector laid out as a column reads, at `(i, 0)`, the vector at `i`. -/
theorem column_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Layer 1 -/

/-- The first region's output is the reference's first product. -/
theorem prod1 : W2 m ρ c (Proc.devRef .tc main_v38) = val_main_v27 (F := Ideal) (x0 m c) (x3 m c) := by
  refine (W2_arr m ρ c 2).trans (funext fun (i : S100000x128.Idx) => ?_)
  obtain ⟨r, q, rfl⟩ : ∃ (r : Fin 100000) (q : Fin 128), i = ix2 r q := ⟨i 0, i 1, eq_ix2 i⟩
  exact (DenseValue.matmul0 (V1 m ρ) c _ _ (feat1 m ρ c) (wgtA1 m ρ c) r q).trans (product1 _ _ r q).symm

/-- The second stretch gathers the product's rows at the sources, scales by the edge weights and sums at the
    destinations: the reference's first aggregate, the same operations of the same values. -/
theorem agg1 : W3 m ρ c (Proc.devRef .tc main_v51) = val_main_v40 (F := Ideal) (x0 m c) (x1 m c) (x3 m c) := by
  dsimp only [W3, hostOps1]
  after_results_simp
  rw [to2 m ρ c main_v6 (by decide), to2 m ρ c main_v3 (by decide), to2 m ρ c main_v26 (by decide),
    src1, dst1, norm1, prod1]
  rfl

/-! ## Layer 2 -/

theorem prod2 : W4 m ρ c (Proc.devRef .tc main_v52) = val_main_v45 (F := Ideal) (x0 m c) (x1 m c) (x3 m c) (x4 m c) (x5 m c) := by
  refine (W4_arr m ρ c 3).trans (funext fun (i : S100000x128.Idx) => ?_)
  obtain ⟨r, q, rfl⟩ : ∃ (r : Fin 100000) (q : Fin 128), i = ix2 r q := ⟨i 0, i 1, eq_ix2 i⟩
  refine (DenseValue.layer1 (V3 m ρ) c _ _ _ (agg1 m ρ c)
    ((to3 m ρ c main_v33 (by decide) (by decide)).trans (biasA1 m ρ c))
    ((to3 m ρ c main_v29 (by decide) (by decide)).trans (wgtB1 m ρ c)) r q).trans ?_
  rw [product2]
  simp only [shapeCast_a_1a_apply]

theorem agg2 : W5 m ρ c (Proc.devRef .tc main_v65) = val_main_v58 (F := Ideal) (x0 m c) (x1 m c) (x3 m c) (x4 m c) (x5 m c) := by
  dsimp only [W5, hostOps2]
  after_results_simp
  rw [to4 m ρ c main_v6 (by decide) (by decide) (by decide), to4 m ρ c main_v3 (by decide) (by decide) (by decide),
    to4 m ρ c main_v26 (by decide) (by decide) (by decide), src1, dst1, norm1, prod2]
  rfl

/-! ## Layer 3 -/

theorem prod3 : W6 m ρ c (Proc.devRef .tc main_v66) = val_main_v63 (F := Ideal) (x0 m c) (x1 m c) (x3 m c) (x4 m c) (x5 m c) (x6 m c) (x7 m c) := by
  refine (W6_arr m ρ c 3).trans (funext fun (i : S100000x128.Idx) => ?_)
  obtain ⟨r, q, rfl⟩ : ∃ (r : Fin 100000) (q : Fin 128), i = ix2 r q := ⟨i 0, i 1, eq_ix2 i⟩
  refine (DenseValue.layer2 (V5 m ρ) c _ _ _ (agg2 m ρ c)
    ((to5 m ρ c main_v34 (by decide) (by decide) (by decide) (by decide)).trans (biasB1 m ρ c))
    ((to5 m ρ c main_v30 (by decide) (by decide) (by decide) (by decide)).trans (wgtC1 m ρ c)) r q).trans ?_
  rw [product3]
  simp only [shapeCast_a_1a_apply]

theorem agg3 : W7 m ρ c (Proc.devRef .tc main_v79) = val_main_v76 (F := Ideal) (x0 m c) (x1 m c) (x3 m c) (x4 m c) (x5 m c) (x6 m c) (x7 m c) := by
  dsimp only [W7, hostOps3]
  after_results_simp
  rw [to6 m ρ c main_v6 (by decide) (by decide) (by decide) (by decide) (by decide),
    to6 m ρ c main_v3 (by decide) (by decide) (by decide) (by decide) (by decide),
    to6 m ρ c main_v26 (by decide) (by decide) (by decide) (by decide) (by decide), src1, dst1, norm1, prod3]
  rfl

/-! ## Layer 4 -/

theorem prod4 : W8 m ρ c (Proc.devRef .tc main_v80) = val_main_v81 (F := Ideal) (x0 m c) (x1 m c) (x3 m c) (x4 m c) (x5 m c) (x6 m c) (x7 m c) (x8 m c) (x9 m c) := by
  refine (W8_arr m ρ c 3).trans (funext fun (i : S100000x128.Idx) => ?_)
  obtain ⟨r, q, rfl⟩ : ∃ (r : Fin 100000) (q : Fin 128), i = ix2 r q := ⟨i 0, i 1, eq_ix2 i⟩
  refine (DenseValue.layer3 (V7 m ρ) c _ _ _ (agg3 m ρ c)
    ((to7 m ρ c main_v35 (by decide) (by decide) (by decide) (by decide) (by decide) (by decide)).trans (biasC1 m ρ c))
    ((to7 m ρ c main_v31 (by decide) (by decide) (by decide) (by decide) (by decide) (by decide)).trans (wgtD1 m ρ c)) r q).trans ?_
  rw [product4]
  simp only [shapeCast_a_1a_apply]

theorem agg4 : W9 m ρ c (Proc.devRef .tc main_v93) = val_main_v94 (F := Ideal) (x0 m c) (x1 m c) (x3 m c) (x4 m c) (x5 m c) (x6 m c) (x7 m c) (x8 m c) (x9 m c) := by
  dsimp only [W9, hostOps4]
  after_results_simp
  rw [to8 m ρ c main_v6 (by decide) (by decide) (by decide) (by decide) (by decide) (by decide) (by decide),
    to8 m ρ c main_v3 (by decide) (by decide) (by decide) (by decide) (by decide) (by decide) (by decide),
    to8 m ρ c main_v26 (by decide) (by decide) (by decide) (by decide) (by decide) (by decide) (by decide),
    src1, dst1, norm1, prod4]
  rfl

/-- The fifth region's output is the reference's last activation. -/
theorem act : W10 m ρ c (Proc.devRef .tc main_v94) = val_main_v98 (F := Ideal) (x0 m c) (x1 m c) (x3 m c) (x4 m c) (x5 m c) (x6 m c) (x7 m c) (x8 m c) (x9 m c) (x10 m c) := by
  refine (W10_arr m ρ c 2).trans (funext fun (i : S100000x128.Idx) => ?_)
  obtain ⟨r, q, rfl⟩ : ∃ (r : Fin 100000) (q : Fin 128), i = ix2 r q := ⟨i 0, i 1, eq_ix2 i⟩
  refine (PoolValue.act4 (V9 m ρ) c _ _ (agg4 m ρ c)
    ((to9 m ρ c main_v36 (by decide) (by decide) (by decide) (by decide) (by decide) (by decide) (by decide) (by decide)).trans (biasD1 m ρ c)) r q).trans ?_
  rw [activation4, shapeCast_a_1a_apply]

/-! ## Pooling and the last linear layer -/

/-- The last stretch sums the activations of each graph's nodes: the reference's pooled sums. -/
theorem sums : W11 m ρ c (Proc.devRef .tc main_v101) = val_main_v105 (F := Ideal) (x0 m c) (x1 m c) (x2 m c) (x3 m c) (x4 m c) (x5 m c) (x6 m c) (x7 m c) (x8 m c) (x9 m c) (x10 m c) := by
  dsimp only [W11, hostOps5]
  after_results_simp
  rw [to10 m ρ c main_arg2 (by decide) (by decide) (by decide) (by decide) (by decide) (by decide) (by decide) (by decide) (by decide),
    batch1, act]
  rfl

/-- … and counts each graph's nodes, laid out as a column. -/
theorem counts : W11 m ρ c (Proc.devRef .tc main_v102) = shapeCast S1024x1 (val_main_v102 (F := Ideal) (x2 m c)) shapeCasts_S1024_S1024x1 := by
  dsimp only [W11, hostOps5]
  after_results_simp
  rw [to10 m ρ c main_arg2 (by decide) (by decide) (by decide) (by decide) (by decide) (by decide) (by decide) (by decide) (by decide),
    batch1]
  rfl

/-- The last region's output is the reference's output. -/
theorem out : W12 m ρ c (Proc.devRef .tc main_v103) = val_main_v114 (F := Ideal) (x0 m c) (x1 m c) (x2 m c) (x3 m c) (x4 m c) (x5 m c) (x6 m c) (x7 m c) (x8 m c) (x9 m c) (x10 m c) (x11 m c) (x12 m c) := by
  refine (W12_arr m ρ c 4).trans (funext fun (i : S1024x2.Idx) => ?_)
  obtain ⟨g, o, rfl⟩ : ∃ (g : Fin 1024) (o : Fin 2), i = ix2 g o := ⟨i 0, i 1, eq_ix2 i⟩
  refine (PoolValue.pool5 (V11 m ρ) c _ _ _ _ (sums m ρ c) (counts m ρ c)
    ((to11 m ρ c main_v32 (by decide) (by decide) (by decide) (by decide) (by decide) (by decide) (by decide) (by decide) (by decide) (by decide)).trans (wgtE1 m ρ c))
    ((to11 m ρ c main_v37 (by decide) (by decide) (by decide) (by decide) (by decide) (by decide) (by decide) (by decide) (by decide) (by decide)).trans (biasE1 m ρ c)) g o).trans ?_
  rw [output, shapeCast_a_1a_apply]
  refine congrArg (· + x12 m c (ix1 o)) (Finset.sum_congr rfl fun k _ => ?_)
  rw [column_apply]

/-! ## The run, with its output named -/

omit c in
/-- Every weakly fair execution of the kernel program terminates with the output buffer at the reference's output
    function of the arguments' launch contents, and the arguments as launched. -/
theorem kernel_run : θ_run defs (onTc (τ := τ) (main (F := Ideal))) ⟨m, fun _ => 0, ρ⟩ (fun r => ∀ c : Dev nD,
      r.2.mem ((c.tc : Thread nD τ).loc main_v103) = val_main_v114 (F := Ideal) (x0 m c) (x1 m c) (x2 m c) (x3 m c) (x4 m c) (x5 m c) (x6 m c) (x7 m c) (x8 m c) (x9 m c) (x10 m c) (x11 m c) (x12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  LastBoundary.run_reads m ρ (fun s h c =>
      ⟨(h c _ (mem_uc main_v103 (by decide))).trans (out m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.Boundary

end
-- ==== Proof.lean ====
/-
  A four-layer graph-convolution network with mean pooling and a linear read-out, computed by six kernel regions
  among host operations, against the same network written with host operations only.

  Both programs add a self-loop to every node, count each node's incoming edges, weigh an edge by the inverse square
  roots of its end points' counts, and in each layer multiply the node features by a weight matrix, gather the rows
  at the edges' sources, scale them by the edge weights, sum them at the edges' destinations, add a bias and clamp
  below at zero; they then sum the nodes of each graph, divide by the graph's node count clamped below at one,
  multiply by the last weights and add the last bias. The kernel program does the products, the bias-and-clamp steps
  and the final division and product in regions over blocks of 4000 rows, rounding the operands of each product to a
  narrower format first; on the extended reals that rounding is the identity, a product into a zero accumulator is the
  sum over the shared axis, and the blocks tile the arrays, so every region leaves exactly what the reference's host
  operations compute. The gathers, scatter-adds and index arithmetic are the same operations in both programs and are
  never opened. No algebraic law beyond that is used, and the inputs' finiteness is not needed.

  The three frames are the generated ones (the reference's is its run with the result dropped); the idealization
  rewrote nothing, so there is nothing to preserve; the two runs end at one function of the arguments.
-/
import proofs.«156880_j83597243449354_1_alg».proof.Defs
import proofs.«156880_j83597243449354_1_alg».proof.Proof.Gen.Kernel
import proofs.«156880_j83597243449354_1_alg».proof.Proof.Gen.Kernel.Frame
import proofs.«156880_j83597243449354_1_alg».proof.Proof.Gen.KernelIdeal
import proofs.«156880_j83597243449354_1_alg».proof.Proof.Gen.KernelIdeal.Frame
import proofs.«156880_j83597243449354_1_alg».proof.Proof.Gen.ReferenceIdeal
import proofs.«156880_j83597243449354_1_alg».proof.Proof.Gen.ReferenceIdeal.Run
import proofs.«156880_j83597243449354_1_alg».proof.Proof.Gen.ReferenceIdeal.Read
import proofs.«156880_j83597243449354_1_alg».proof.Proof.Gen.Pre_finite_inputs
import proofs.«156880_j83597243449354_1_alg».proof.Proof.KernelBoundaries
import Idealize.ShloMosaic.Adequacy
import Idealize.ShloMosaic.Init

noncomputable section

namespace Cert.Proof

open Idealize.ShloMosaic Idealize.ShloMosaic.TcCoe Idealize.SL.Sem

/-- The word-level kernel program runs to completion and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's output function of those
    arguments in their result buffers. -/
theorem algebraic : Cert.algebraic_KernelIdeal_ReferenceIdeal := by
  intro m ρ m' ρ' _ hagree
  refine ⟨_, Cert.KernelIdeal.Boundary.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v114_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
